-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_v104)) (v2 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_v104) = v1 c
          ∧ r.2.mem ((c.tc : Thread Cert.KernelIdeal.nD Cert.KernelIdeal.τ).loc Cert.KernelIdeal.main_v105) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x64 : Shape := ⟨2, ![20000, 64]⟩
abbrev S500000 : Shape := ⟨1, ![500000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x128 : Shape := ⟨2, ![32, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x32 .f32) (main_arg7 : FVec F S32 .f32) (main_arg8 : FVec F S32x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg6
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x128 .f32 := Host.absf main_arg8
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : FVec F S20000x64 .f32) (main_arg2 : IVec S500000 32) (main_arg3 : IVec S500000 32) (main_arg4 : FVec F S128x128 .f32) (main_arg5 : FVec F S128 .f32) (main_arg6 : FVec F S128x32 .f32) (main_arg7 : FVec F S32 .f32) (main_arg8 : FVec F S32x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S20000x64 : Shape := ⟨2, ![20000, 64]⟩
abbrev S500000 : Shape := ⟨1, ![500000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x128 : Shape := ⟨2, ![32, 128]⟩
abbrev S_ : Shape := ⟨0, ![]⟩
abbrev S20000x128 : Shape := ⟨2, ![20000, 128]⟩
abbrev S120000x128 : Shape := ⟨2, ![120000, 128]⟩
abbrev S1000000 : Shape := ⟨1, ![1000000]⟩
abbrev S10000x128 : Shape := ⟨2, ![10000, 128]⟩
abbrev S120000 : Shape := ⟨1, ![120000]⟩
abbrev S1120000 : Shape := ⟨1, ![1120000]⟩
abbrev S1120000x1 : Shape := ⟨2, ![1120000, 1]⟩
abbrev S1120000x128 : Shape := ⟨2, ![1120000, 128]⟩
abbrev S1x128 : Shape := ⟨2, ![1, 128]⟩
abbrev S120000x32 : Shape := ⟨2, ![120000, 32]⟩
abbrev S10000x32 : Shape := ⟨2, ![10000, 32]⟩
abbrev S1120000x32 : Shape := ⟨2, ![1120000, 32]⟩
abbrev S1x32 : Shape := ⟨2, ![1, 32]⟩

abbrev nBuf : Space → Nat
  | .hbm => 147
  | .vmem => 16
  | .smem => 0
  | _ => 0

abbrev hbmTy0_0 (i : Nat) : BufTy := match i % 128 with
  | 0 => ⟨S100000x128, .f32⟩
  | 1 => ⟨S20000x64, .f32⟩
  | 2 => ⟨S500000, .i32⟩
  | 3 => ⟨S500000, .i32⟩
  | 4 => ⟨S128x128, .f32⟩
  | 5 => ⟨S128, .f32⟩
  | 6 => ⟨S128x32, .f32⟩
  | 7 => ⟨S32, .f32⟩
  | 8 => ⟨S32x128, .f32⟩
  | 9 => ⟨S128, .f32⟩
  | 10 => ⟨S_, .i32⟩
  | 11 => ⟨S_, .f32⟩
  | 12 => ⟨S20000x128, .f32⟩
  | 13 => ⟨S120000x128, .f32⟩
  | 14 => ⟨S_, .i32⟩
  | 15 => ⟨S500000, .i32⟩
  | 16 => ⟨S500000, .i32⟩
  | 17 => ⟨S1000000, .i32⟩
  | 18 => ⟨S_, .i32⟩
  | 19 => ⟨S500000, .i32⟩
  | 20 => ⟨S500000, .i32⟩
  | 21 => ⟨S1000000, .i32⟩
  | 22 => ⟨S120000x128, .f32⟩
  | 23 => ⟨S120000, .i32⟩
  | 24 => ⟨S1120000, .i32⟩
  | 25 => ⟨S1120000, .i32⟩
  | 26 => ⟨S_, .f32⟩
  | 27 => ⟨S120000, .f32⟩
  | 28 => ⟨S_, .i32⟩
  | 29 => ⟨S1120000, .i32⟩
  | 30 => ⟨S1120000, .i1⟩
  | 31 => ⟨S_, .i32⟩
  | 32 => ⟨S1120000, .i32⟩
  | 33 => ⟨S1120000, .i32⟩
  | 34 => ⟨S1120000, .i32⟩
  | 35 => ⟨S1120000x1, .i32⟩
  | 36 => ⟨S_, .f32⟩
  | 37 => ⟨S1120000, .f32⟩
  | 38 => ⟨S120000, .f32⟩
  | 39 => ⟨S_, .f32⟩
  | 40 => ⟨S120000, .f32⟩
  | 41 => ⟨S120000, .f32⟩
  | 42 => ⟨S_, .i32⟩
  | 43 => ⟨S1120000, .i32⟩
  | 44 => ⟨S1120000, .i1⟩
  | 45 => ⟨S_, .i32⟩
  | 46 => ⟨S1120000, .i32⟩
  | 47 => ⟨S1120000, .i32⟩
  | 48 => ⟨S1120000, .i32⟩
  | 49 => ⟨S1120000x1, .i32⟩
  | 50 => ⟨S1120000, .f32⟩
  | 51 => ⟨S_, .i32⟩
  | 52 => ⟨S1120000, .i32⟩
  | 53 => ⟨S1120000, .i1⟩
  | 54 => ⟨S_, .i32⟩
  | 55 => ⟨S1120000, .i32⟩
  | 56 => ⟨S1120000, .i32⟩
  | 57 => ⟨S1120000, .i32⟩
  | 58 => ⟨S1120000x1, .i32⟩
  | 59 => ⟨S1120000, .f32⟩
  | 60 => ⟨S1120000, .f32⟩
  | 61 => ⟨S1120000x1, .f32⟩
  | 62 => ⟨S_, .i32⟩
  | 63 => ⟨S1120000, .i32⟩
  | 64 => ⟨S1120000, .i1⟩
  | 65 => ⟨S_, .i32⟩
  | 66 => ⟨S1120000, .i32⟩
  | 67 => ⟨S1120000, .i32⟩
  | 68 => ⟨S1120000, .i32⟩
  | 69 => ⟨S1120000x1, .i32⟩
  | 70 => ⟨S1120000x128, .f32⟩
  | 71 => ⟨S1120000x128, .f32⟩
  | 72 => ⟨S1120000x128, .f32⟩
  | 73 => ⟨S_, .f32⟩
  | 74 => ⟨S120000x128, .f32⟩
  | 75 => ⟨S1120000x1, .i32⟩
  | 76 => ⟨S120000x128, .f32⟩
  | 77 => ⟨S1x128, .f32⟩
  | 78 => ⟨S120000x128, .f32⟩
  | 79 => ⟨S120000x128, .f32⟩
  | 80 => ⟨S_, .f32⟩
  | 81 => ⟨S120000x128, .f32⟩
  | 82 => ⟨S120000x128, .f32⟩
  | 83 => ⟨S120000x32, .f32⟩
  | 84 => ⟨S120000, .i32⟩
  | 85 => ⟨S1120000, .i32⟩
  | 86 => ⟨S1120000, .i32⟩
  | 87 => ⟨S_, .f32⟩
  | 88 => ⟨S120000, .f32⟩
  | 89 => ⟨S_, .i32⟩
  | 90 => ⟨S1120000, .i32⟩
  | 91 => ⟨S1120000, .i1⟩
  | 92 => ⟨S_, .i32⟩
  | 93 => ⟨S1120000, .i32⟩
  | 94 => ⟨S1120000, .i32⟩
  | 95 => ⟨S1120000, .i32⟩
  | 96 => ⟨S1120000x1, .i32⟩
  | 97 => ⟨S_, .f32⟩
  | 98 => ⟨S1120000, .f32⟩
  | 99 => ⟨S120000, .f32⟩
  | 100 => ⟨S_, .f32⟩
  | 101 => ⟨S120000, .f32⟩
  | 102 => ⟨S120000, .f32⟩
  | 103 => ⟨S_, .i32⟩
  | 104 => ⟨S1120000, .i32⟩
  | 105 => ⟨S1120000, .i1⟩
  | 106 => ⟨S_, .i32⟩
  | 107 => ⟨S1120000, .i32⟩
  | 108 => ⟨S1120000, .i32⟩
  | 109 => ⟨S1120000, .i32⟩
  | 110 => ⟨S1120000x1, .i32⟩
  | 111 => ⟨S1120000, .f32⟩
  | 112 => ⟨S_, .i32⟩
  | 113 => ⟨S1120000, .i32⟩
  | 114 => ⟨S1120000, .i1⟩
  | 115 => ⟨S_, .i32⟩
  | 116 => ⟨S1120000, .i32⟩
  | 117 => ⟨S1120000, .i32⟩
  | 118 => ⟨S1120000, .i32⟩
  | 119 => ⟨S1120000x1, .i32⟩
  | 120 => ⟨S1120000, .f32⟩
  | 121 => ⟨S1120000, .f32⟩
  | 122 => ⟨S1120000x1, .f32⟩
  | 123 => ⟨S_, .i32⟩
  | 124 => ⟨S1120000, .i32⟩
  | 125 => ⟨S1120000, .i1⟩
  | 126 => ⟨S_, .i32⟩
  | 127 => ⟨S1120000, .i32⟩
  | _ => ⟨S100000x128, .f32⟩

abbrev hbmTy0_1 (i : Nat) : BufTy := match i % 128 with
  | 0 => ⟨S1120000, .i32⟩
  | 1 => ⟨S1120000, .i32⟩
  | 2 => ⟨S1120000x1, .i32⟩
  | 3 => ⟨S1120000x32, .f32⟩
  | 4 => ⟨S1120000x32, .f32⟩
  | 5 => ⟨S1120000x32, .f32⟩
  | 6 => ⟨S_, .f32⟩
  | 7 => ⟨S120000x32, .f32⟩
  | 8 => ⟨S1120000x1, .i32⟩
  | 9 => ⟨S120000x32, .f32⟩
  | 10 => ⟨S1x32, .f32⟩
  | 11 => ⟨S120000x32, .f32⟩
  | 12 => ⟨S120000x32, .f32⟩
  | 13 => ⟨S1x128, .f32⟩
  | 14 => ⟨S120000x128, .f32⟩
  | 15 => ⟨S100000x128, .f32⟩
  | 16 => ⟨S20000x64, .f32⟩
  | 17 => ⟨S_, .f32⟩
  | 18 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_c_11 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call1_cst : Ref sig .tc := ⟨.hbm, 80, rfl⟩
abbrev main_call1_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_c_14 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_16 : Ref sig .tc := ⟨.hbm, 97, rfl⟩
abbrev main_v66 : Ref sig .tc := ⟨.hbm, 98, rfl⟩
abbrev main_v67 : Ref sig .tc := ⟨.hbm, 99, rfl⟩
abbrev main_cst_17 : Ref sig .tc := ⟨.hbm, 100, rfl⟩
abbrev main_v68 : Ref sig .tc := ⟨.hbm, 101, rfl⟩
abbrev main_v69 : Ref sig .tc := ⟨.hbm, 102, rfl⟩
abbrev main_c_18 : Ref sig .tc := ⟨.hbm, 103, rfl⟩
abbrev main_v70 : Ref sig .tc := ⟨.hbm, 104, rfl⟩
abbrev main_v71 : Ref sig .tc := ⟨.hbm, 105, rfl⟩
abbrev main_c_19 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_20 : Ref sig .tc := ⟨.hbm, 112, rfl⟩
abbrev main_v77 : Ref sig .tc := ⟨.hbm, 113, rfl⟩
abbrev main_v78 : Ref sig .tc := ⟨.hbm, 114, rfl⟩
abbrev main_c_21 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_22 : Ref sig .tc := ⟨.hbm, 123, rfl⟩
abbrev main_v86 : Ref sig .tc := ⟨.hbm, 124, rfl⟩
abbrev main_v87 : Ref sig .tc := ⟨.hbm, 125, rfl⟩
abbrev main_c_23 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_24 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_25 : Ref sig .tc := ⟨.hbm, 145, rfl⟩
abbrev main_v105 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![12], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  pads_S20000x64_S20000x128_000_0640 : S20000x64.Pads (![0, 0] : Fin 2 → Nat) ![0, 64] ![0, 0] S20000x128
  h_S_ : 0 < S_.numel
  concatenates_S100000x128_S20000x128_S120000x128_d0 : Shape.Concatenates [S100000x128, S20000x128] S120000x128 0
  bcast_S_S500000 : S_.BroadcastsInDim S500000 (![] : Fin 0 → Fin S500000.rank)
  concatenates_S500000_S500000_S1000000_d0 : Shape.Concatenates [S500000, S500000] S1000000 0
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1000000_S120000_S1120000_d0 : Shape.Concatenates [S1000000, S120000] S1120000 0
  bcast_S_S120000 : S_.BroadcastsInDim S120000 (![] : Fin 0 → Fin S120000.rank)
  bcast_S_S1120000 : S_.BroadcastsInDim S1120000 (![] : Fin 0 → Fin S1120000.rank)
  bcast_S1120000_S1120000x1_0 : S1120000.BroadcastsInDim S1120000x1 (![0] : Fin 1 → Fin S1120000x1.rank)
  bcast_S1120000x1_S1120000x128_0_1 : S1120000x1.BroadcastsInDim S1120000x128 (![0, 1] : Fin 2 → Fin S1120000x128.rank)
  bcast_S_S120000x128 : S_.BroadcastsInDim S120000x128 (![] : Fin 0 → Fin S120000x128.rank)
  bcast_S128_S1x128_1 : S128.BroadcastsInDim S1x128 (![1] : Fin 1 → Fin S1x128.rank)
  bcast_S1x128_S120000x128_0_1 : S1x128.BroadcastsInDim S120000x128 (![0, 1] : Fin 2 → Fin S120000x128.rank)
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S1120000x1_S1120000x32_0_1 : S1120000x1.BroadcastsInDim S1120000x32 (![0, 1] : Fin 2 → Fin S1120000x32.rank)
  bcast_S_S120000x32 : S_.BroadcastsInDim S120000x32 (![] : Fin 0 → Fin S120000x32.rank)
  bcast_S32_S1x32_1 : S32.BroadcastsInDim S1x32 (![1] : Fin 1 → Fin S1x32.rank)
  bcast_S1x32_S120000x32_0_1 : S1x32.BroadcastsInDim S120000x32 (![0, 1] : Fin 2 → Fin S120000x32.rank)
  shapeCasts_S128_S1x128 : S128.ShapeCasts S1x128
  shapeCasts_S10000x32_S10000x32 : S10000x32.ShapeCasts S10000x32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S120000x128_S100000x128_0_0 : S120000x128.Slices ![0, 0] S100000x128
  slices_S120000x128_S20000x64_100000_0 : S120000x128.Slices ![100000, 0] S20000x64
  dot_S10000x128_S128x128_S10000x128_1_0_0_1_n_n_wf : DotDims.WF S10000x128 S128x128 S10000x128 [1] [0] [0] [1] [] []
  scatter_S120000_S1120000x1_S1120000_n_0_0_1_wf : ScatterDims.WF S120000 S1120000x1 S1120000 [] [0] [0] 1
  gather_S120000_S1120000x1_S1120000_n_0_n_n_0_1_1_wf : GatherDims.WF S120000 S1120000x1 S1120000 [] [0] [] [0] [] 1 ![1]
  gather_S120000x128_S1120000x1_S1120000x128_1_0_n_n_0_1_1128_wf : GatherDims.WF S120000x128 S1120000x1 S1120000x128 [1] [0] [] [0] [] 1 ![1, 128]
  scatter_S120000x128_S1120000x1_S1120000x128_1_0_0_1_wf : ScatterDims.WF S120000x128 S1120000x1 S1120000x128 [1] [0] [0] 1
  dot_S10000x128_S128x32_S10000x32_1_0_0_1_n_n_wf : DotDims.WF S10000x128 S128x32 S10000x32 [1] [0] [0] [1] [] []
  gather_S120000x32_S1120000x1_S1120000x32_1_0_n_n_0_1_132_wf : GatherDims.WF S120000x32 S1120000x1 S1120000x32 [1] [0] [] [0] [] 1 ![1, 32]
  scatter_S120000x32_S1120000x1_S1120000x32_1_0_0_1_wf : ScatterDims.WF S120000x32 S1120000x1 S1120000x32 [1] [0] [0] 1
  dot_S10000x32_S32x128_S10000x128_1_0_0_1_n_n_wf : DotDims.WF S10000x32 S32x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S120000x128.size a
  hwx0_0 : ∀ i : grid0.Coords, EltTy.bits .f32 = 32 ∨ (Rect.block (s := S120000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S120000x128.size a
  hwx0_2 : ∀ i : grid0.Coords, EltTy.bits .f32 = 32 ∨ (Rect.block (s := S120000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S120000x128.size a
  hwx1_0 : ∀ i : grid1.Coords, EltTy.bits .f32 = 32 ∨ (Rect.block (s := S120000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .f32 = 32 ∨ (Rect.block (s := S128x32) S128x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S120000x32.size a
  hwx1_2 : ∀ i : grid1.Coords, EltTy.bits .f32 = 32 ∨ (Rect.block (s := S120000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S120000x32.size a
  hwx2_0 : ∀ i : grid2.Coords, EltTy.bits .f32 = 32 ∨ (Rect.block (s := S120000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x128.size a ≤ S32x128.size a
  hwx2_1 : ∀ i : grid2.Coords, EltTy.bits .f32 = 32 ∨ (Rect.block (s := S32x128) S32x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S120000x128.size a
  hwx2_3 : ∀ i : grid2.Coords, EltTy.bits .f32 = 32 ∨ (Rect.block (s := S120000x128) S10000x128.size (cc2_transform_3 i) (hinb2_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S120000_S1120000x1_S1120000_n_0_0_1 : ScatterDims S120000 S1120000x1 S1120000 where
  updateWindowDims := []
  insertedWindowDims := [0]
  scatterDimsToOperandDims := [0]
  indexVectorDim := 1
  wf := scatter_S120000_S1120000x1_S1120000_n_0_0_1_wf
def gather_S120000_S1120000x1_S1120000_n_0_n_n_0_1_1 : GatherDims S120000 S1120000x1 S1120000 where
  offsetDims := []
  collapsedSliceDims := [0]
  operandBatchingDims := []
  startIndicesBatchingDims := []
  startIndexMap := [0]
  indexVectorDim := 1
  sliceSizes := ![1]
  wf := gather_S120000_S1120000x1_S1120000_n_0_n_n_0_1_1_wf
def gather_S120000x128_S1120000x1_S1120000x128_1_0_n_n_0_1_1128 : GatherDims S120000x128 S1120000x1 S1120000x128 where
  offsetDims := [1]
  collapsedSliceDims := [0]
  operandBatchingDims := []
  startIndicesBatchingDims := []
  startIndexMap := [0]
  indexVectorDim := 1
  sliceSizes := ![1, 128]
  wf := gather_S120000x128_S1120000x1_S1120000x128_1_0_n_n_0_1_1128_wf
def scatter_S120000x128_S1120000x1_S1120000x128_1_0_0_1 : ScatterDims S120000x128 S1120000x1 S1120000x128 where
  updateWindowDims := [1]
  insertedWindowDims := [0]
  scatterDimsToOperandDims := [0]
  indexVectorDim := 1
  wf := scatter_S120000x128_S1120000x1_S1120000x128_1_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S120000x32_S1120000x1_S1120000x32_1_0_n_n_0_1_132 : GatherDims S120000x32 S1120000x1 S1120000x32 where
  offsetDims := [1]
  collapsedSliceDims := [0]
  operandBatchingDims := []
  startIndicesBatchingDims := []
  startIndexMap := [0]
  indexVectorDim := 1
  sliceSizes := ![1, 32]
  wf := gather_S120000x32_S1120000x1_S1120000x32_1_0_n_n_0_1_132_wf
def scatter_S120000x32_S1120000x1_S1120000x32_1_0_0_1 : ScatterDims S120000x32 S1120000x1 S1120000x32 where
  updateWindowDims := [1]
  insertedWindowDims := [0]
  scatterDimsToOperandDims := [0]
  indexVectorDim := 1
  wf := scatter_S120000x32_S1120000x1_S1120000x32_1_0_0_1_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf

abbrev win0_0 : Pipeline.Window sig grid0 :=
  Pipeline.Window.ofSpec (Memref.whole main_v1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v100) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S32x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v101) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v102) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S20000x64 : Shape := ⟨2, ![20000, 64]⟩
abbrev S500000 : Shape := ⟨1, ![500000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x128 : Shape := ⟨2, ![32, 128]⟩
abbrev S_ : Shape := ⟨0, ![]⟩
abbrev S20000x128 : Shape := ⟨2, ![20000, 128]⟩
abbrev S120000x128 : Shape := ⟨2, ![120000, 128]⟩
abbrev S1000000 : Shape := ⟨1, ![1000000]⟩
abbrev S120000 : Shape := ⟨1, ![120000]⟩
abbrev S1120000 : Shape := ⟨1, ![1120000]⟩
abbrev S1120000x1 : Shape := ⟨2, ![1120000, 1]⟩
abbrev S1120000x128 : Shape := ⟨2, ![1120000, 128]⟩
abbrev S1x128 : Shape := ⟨2, ![1, 128]⟩
abbrev S120000x32 : Shape := ⟨2, ![120000, 32]⟩
abbrev S1120000x32 : Shape := ⟨2, ![1120000, 32]⟩
abbrev S1x32 : Shape := ⟨2, ![1, 32]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S20000x64, .f32⟩
  | 2 => ⟨S500000, .i32⟩
  | 3 => ⟨S500000, .i32⟩
  | 4 => ⟨S128x128, .f32⟩
  | 5 => ⟨S128, .f32⟩
  | 6 => ⟨S128x32, .f32⟩
  | 7 => ⟨S32, .f32⟩
  | 8 => ⟨S32x128, .f32⟩
  | 9 => ⟨S128, .f32⟩
  | 10 => ⟨S_, .i32⟩
  | 11 => ⟨S_, .f32⟩
  | 12 => ⟨S20000x128, .f32⟩
  | 13 => ⟨S120000x128, .f32⟩
  | 14 => ⟨S_, .i32⟩
  | 15 => ⟨S500000, .i32⟩
  | 16 => ⟨S500000, .i32⟩
  | 17 => ⟨S1000000, .i32⟩
  | 18 => ⟨S_, .i32⟩
  | 19 => ⟨S500000, .i32⟩
  | 20 => ⟨S500000, .i32⟩
  | 21 => ⟨S1000000, .i32⟩
  | 22 => ⟨S120000x128, .f32⟩
  | 23 => ⟨S120000, .i32⟩
  | 24 => ⟨S1120000, .i32⟩
  | 25 => ⟨S1120000, .i32⟩
  | 26 => ⟨S_, .f32⟩
  | 27 => ⟨S120000, .f32⟩
  | 28 => ⟨S_, .i32⟩
  | 29 => ⟨S1120000, .i32⟩
  | 30 => ⟨S1120000, .i1⟩
  | 31 => ⟨S_, .i32⟩
  | 32 => ⟨S1120000, .i32⟩
  | 33 => ⟨S1120000, .i32⟩
  | 34 => ⟨S1120000, .i32⟩
  | 35 => ⟨S1120000x1, .i32⟩
  | 36 => ⟨S_, .f32⟩
  | 37 => ⟨S1120000, .f32⟩
  | 38 => ⟨S120000, .f32⟩
  | 39 => ⟨S_, .f32⟩
  | 40 => ⟨S120000, .f32⟩
  | 41 => ⟨S120000, .f32⟩
  | 42 => ⟨S_, .i32⟩
  | 43 => ⟨S1120000, .i32⟩
  | 44 => ⟨S1120000, .i1⟩
  | 45 => ⟨S_, .i32⟩
  | 46 => ⟨S1120000, .i32⟩
  | 47 => ⟨S1120000, .i32⟩
  | 48 => ⟨S1120000, .i32⟩
  | 49 => ⟨S1120000x1, .i32⟩
  | 50 => ⟨S1120000, .f32⟩
  | 51 => ⟨S_, .i32⟩
  | 52 => ⟨S1120000, .i32⟩
  | 53 => ⟨S1120000, .i1⟩
  | 54 => ⟨S_, .i32⟩
  | 55 => ⟨S1120000, .i32⟩
  | 56 => ⟨S1120000, .i32⟩
  | 57 => ⟨S1120000, .i32⟩
  | 58 => ⟨S1120000x1, .i32⟩
  | 59 => ⟨S1120000, .f32⟩
  | 60 => ⟨S1120000, .f32⟩
  | 61 => ⟨S1120000x1, .f32⟩
  | 62 => ⟨S_, .i32⟩
  | 63 => ⟨S1120000, .i32⟩
  | 64 => ⟨S1120000, .i1⟩
  | 65 => ⟨S_, .i32⟩
  | 66 => ⟨S1120000, .i32⟩
  | 67 => ⟨S1120000, .i32⟩
  | 68 => ⟨S1120000, .i32⟩
  | 69 => ⟨S1120000x1, .i32⟩
  | 70 => ⟨S1120000x128, .f32⟩
  | 71 => ⟨S1120000x128, .f32⟩
  | 72 => ⟨S1120000x128, .f32⟩
  | 73 => ⟨S_, .f32⟩
  | 74 => ⟨S120000x128, .f32⟩
  | 75 => ⟨S1120000x1, .i32⟩
  | 76 => ⟨S120000x128, .f32⟩
  | 77 => ⟨S1x128, .f32⟩
  | 78 => ⟨S120000x128, .f32⟩
  | 79 => ⟨S120000x128, .f32⟩
  | 80 => ⟨S_, .f32⟩
  | 81 => ⟨S120000x128, .f32⟩
  | 82 => ⟨S120000x128, .f32⟩
  | 83 => ⟨S120000x32, .f32⟩
  | 84 => ⟨S120000, .i32⟩
  | 85 => ⟨S1120000, .i32⟩
  | 86 => ⟨S1120000, .i32⟩
  | 87 => ⟨S_, .f32⟩
  | 88 => ⟨S120000, .f32⟩
  | 89 => ⟨S_, .i32⟩
  | 90 => ⟨S1120000, .i32⟩
  | 91 => ⟨S1120000, .i1⟩
  | 92 => ⟨S_, .i32⟩
  | 93 => ⟨S1120000, .i32⟩
  | 94 => ⟨S1120000, .i32⟩
  | 95 => ⟨S1120000, .i32⟩
  | 96 => ⟨S1120000x1, .i32⟩
  | 97 => ⟨S_, .f32⟩
  | 98 => ⟨S1120000, .f32⟩
  | 99 => ⟨S120000, .f32⟩
  | 100 => ⟨S_, .f32⟩
  | 101 => ⟨S120000, .f32⟩
  | 102 => ⟨S120000, .f32⟩
  | 103 => ⟨S_, .i32⟩
  | 104 => ⟨S1120000, .i32⟩
  | 105 => ⟨S1120000, .i1⟩
  | 106 => ⟨S_, .i32⟩
  | 107 => ⟨S1120000, .i32⟩
  | 108 => ⟨S1120000, .i32⟩
  | 109 => ⟨S1120000, .i32⟩
  | 110 => ⟨S1120000x1, .i32⟩
  | 111 => ⟨S1120000, .f32⟩
  | 112 => ⟨S_, .i32⟩
  | 113 => ⟨S1120000, .i32⟩
  | 114 => ⟨S1120000, .i1⟩
  | 115 => ⟨S_, .i32⟩
  | 116 => ⟨S1120000, .i32⟩
  | 117 => ⟨S1120000, .i32⟩
  | 118 => ⟨S1120000, .i32⟩
  | 119 => ⟨S1120000x1, .i32⟩
  | 120 => ⟨S1120000, .f32⟩
  | 121 => ⟨S1120000, .f32⟩
  | 122 => ⟨S1120000x1, .f32⟩
  | 123 => ⟨S_, .i32⟩
  | 124 => ⟨S1120000, .i32⟩
  | 125 => ⟨S1120000, .i1⟩
  | 126 => ⟨S_, .i32⟩
  | 127 => ⟨S1120000, .i32⟩
  | _ => ⟨S100000x128, .f32⟩

abbrev hbmTy0_1 (i : Nat) : BufTy := match i % 128 with
  | 0 => ⟨S1120000, .i32⟩
  | 1 => ⟨S1120000, .i32⟩
  | 2 => ⟨S1120000x1, .i32⟩
  | 3 => ⟨S1120000x32, .f32⟩
  | 4 => ⟨S1120000x32, .f32⟩
  | 5 => ⟨S1120000x32, .f32⟩
  | 6 => ⟨S_, .f32⟩
  | 7 => ⟨S120000x32, .f32⟩
  | 8 => ⟨S1120000x1, .i32⟩
  | 9 => ⟨S120000x32, .f32⟩
  | 10 => ⟨S1x32, .f32⟩
  | 11 => ⟨S120000x32, .f32⟩
  | 12 => ⟨S120000x32, .f32⟩
  | 13 => ⟨S120000x128, .f32⟩
  | 14 => ⟨S1x128, .f32⟩
  | 15 => ⟨S120000x128, .f32⟩
  | 16 => ⟨S120000x128, .f32⟩
  | 17 => ⟨S100000x128, .f32⟩
  | 18 => ⟨S20000x64, .f32⟩
  | 19 => ⟨S_, .f32⟩
  | 20 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_c_11 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call1_cst : Ref sig .tc := ⟨.hbm, 80, rfl⟩
abbrev main_call1_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_c_14 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_16 : Ref sig .tc := ⟨.hbm, 97, rfl⟩
abbrev main_v66 : Ref sig .tc := ⟨.hbm, 98, rfl⟩
abbrev main_v67 : Ref sig .tc := ⟨.hbm, 99, rfl⟩
abbrev main_cst_17 : Ref sig .tc := ⟨.hbm, 100, rfl⟩
abbrev main_v68 : Ref sig .tc := ⟨.hbm, 101, rfl⟩
abbrev main_v69 : Ref sig .tc := ⟨.hbm, 102, rfl⟩
abbrev main_c_18 : Ref sig .tc := ⟨.hbm, 103, rfl⟩
abbrev main_v70 : Ref sig .tc := ⟨.hbm, 104, rfl⟩
abbrev main_v71 : Ref sig .tc := ⟨.hbm, 105, rfl⟩
abbrev main_c_19 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_20 : Ref sig .tc := ⟨.hbm, 112, rfl⟩
abbrev main_v77 : Ref sig .tc := ⟨.hbm, 113, rfl⟩
abbrev main_v78 : Ref sig .tc := ⟨.hbm, 114, rfl⟩
abbrev main_c_21 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_22 : Ref sig .tc := ⟨.hbm, 123, rfl⟩
abbrev main_v86 : Ref sig .tc := ⟨.hbm, 124, rfl⟩
abbrev main_v87 : Ref sig .tc := ⟨.hbm, 125, rfl⟩
abbrev main_c_23 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_24 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_25 : Ref sig .tc := ⟨.hbm, 147, rfl⟩
abbrev main_v107 : Ref sig .tc := ⟨.hbm, 148, rfl⟩

abbrev nD : Nat := 1
abbrev τ : Topo := Topo.v7x

variable {F : FTy → Type} [FloatOps F]

class Facts₀ : Prop where
  pads_S20000x64_S20000x128_000_0640 : S20000x64.Pads (![0, 0] : Fin 2 → Nat) ![0, 64] ![0, 0] S20000x128
  h_S_ : 0 < S_.numel
  concatenates_S100000x128_S20000x128_S120000x128_d0 : Shape.Concatenates [S100000x128, S20000x128] S120000x128 0
  bcast_S_S500000 : S_.BroadcastsInDim S500000 (![] : Fin 0 → Fin S500000.rank)
  concatenates_S500000_S500000_S1000000_d0 : Shape.Concatenates [S500000, S500000] S1000000 0
  concatenates_S1000000_S120000_S1120000_d0 : Shape.Concatenates [S1000000, S120000] S1120000 0
  bcast_S_S120000 : S_.BroadcastsInDim S120000 (![] : Fin 0 → Fin S120000.rank)
  bcast_S_S1120000 : S_.BroadcastsInDim S1120000 (![] : Fin 0 → Fin S1120000.rank)
  bcast_S1120000_S1120000x1_0 : S1120000.BroadcastsInDim S1120000x1 (![0] : Fin 1 → Fin S1120000x1.rank)
  bcast_S1120000x1_S1120000x128_0_1 : S1120000x1.BroadcastsInDim S1120000x128 (![0, 1] : Fin 2 → Fin S1120000x128.rank)
  bcast_S_S120000x128 : S_.BroadcastsInDim S120000x128 (![] : Fin 0 → Fin S120000x128.rank)
  bcast_S128_S1x128_1 : S128.BroadcastsInDim S1x128 (![1] : Fin 1 → Fin S1x128.rank)
  bcast_S1x128_S120000x128_0_1 : S1x128.BroadcastsInDim S120000x128 (![0, 1] : Fin 2 → Fin S120000x128.rank)
  bcast_S1120000x1_S1120000x32_0_1 : S1120000x1.BroadcastsInDim S1120000x32 (![0, 1] : Fin 2 → Fin S1120000x32.rank)
  bcast_S_S120000x32 : S_.BroadcastsInDim S120000x32 (![] : Fin 0 → Fin S120000x32.rank)
  bcast_S32_S1x32_1 : S32.BroadcastsInDim S1x32 (![1] : Fin 1 → Fin S1x32.rank)
  bcast_S1x32_S120000x32_0_1 : S1x32.BroadcastsInDim S120000x32 (![0, 1] : Fin 2 → Fin S120000x32.rank)
  slices_S120000x128_S100000x128_0_0 : S120000x128.Slices ![0, 0] S100000x128
  slices_S120000x128_S20000x64_100000_0 : S120000x128.Slices ![100000, 0] S20000x64
  dot_S120000x128_S128x128_S120000x128_1_0_0_1_n_n_wf : DotDims.WF S120000x128 S128x128 S120000x128 [1] [0] [0] [1] [] []
  scatter_S120000_S1120000x1_S1120000_n_0_0_1_wf : ScatterDims.WF S120000 S1120000x1 S1120000 [] [0] [0] 1
  gather_S120000_S1120000x1_S1120000_n_0_n_n_0_1_1_wf : GatherDims.WF S120000 S1120000x1 S1120000 [] [0] [] [0] [] 1 ![1]
  gather_S120000x128_S1120000x1_S1120000x128_1_0_n_n_0_1_1128_wf : GatherDims.WF S120000x128 S1120000x1 S1120000x128 [1] [0] [] [0] [] 1 ![1, 128]
  scatter_S120000x128_S1120000x1_S1120000x128_1_0_0_1_wf : ScatterDims.WF S120000x128 S1120000x1 S1120000x128 [1] [0] [0] 1
  dot_S120000x128_S128x32_S120000x32_1_0_0_1_n_n_wf : DotDims.WF S120000x128 S128x32 S120000x32 [1] [0] [0] [1] [] []
  gather_S120000x32_S1120000x1_S1120000x32_1_0_n_n_0_1_132_wf : GatherDims.WF S120000x32 S1120000x1 S1120000x32 [1] [0] [] [0] [] 1 ![1, 32]
  scatter_S120000x32_S1120000x1_S1120000x32_1_0_0_1_wf : ScatterDims.WF S120000x32 S1120000x1 S1120000x32 [1] [0] [0] 1
  dot_S120000x32_S32x128_S120000x128_1_0_0_1_n_n_wf : DotDims.WF S120000x32 S32x128 S120000x128 [1] [0] [0] [1] [] []

variable [Facts₀]

def dot_S120000x128_S128x128_S120000x128_1_0_0_1_n_n : DotDims S120000x128 S128x128 S120000x128 where
  lhsContracting := [1]
  rhsContracting := [0]
  lhsNonContracting := [0]
  rhsNonContracting := [1]
  lhsBatch := []
  rhsBatch := []
  wf := dot_S120000x128_S128x128_S120000x128_1_0_0_1_n_n_wf
def scatter_S120000_S1120000x1_S1120000_n_0_0_1 : ScatterDims S120000 S1120000x1 S1120000 where
  updateWindowDims := []
  insertedWindowDims := [0]
  scatterDimsToOperandDims := [0]
  indexVectorDim := 1
  wf := scatter_S120000_S1120000x1_S1120000_n_0_0_1_wf
def gather_S120000_S1120000x1_S1120000_n_0_n_n_0_1_1 : GatherDims S120000 S1120000x1 S1120000 where
  offsetDims := []
  collapsedSliceDims := [0]
  operandBatchingDims := []
  startIndicesBatchingDims := []
  startIndexMap := [0]
  indexVectorDim := 1
  sliceSizes := ![1]
  wf := gather_S120000_S1120000x1_S1120000_n_0_n_n_0_1_1_wf
def gather_S120000x128_S1120000x1_S1120000x128_1_0_n_n_0_1_1128 : GatherDims S120000x128 S1120000x1 S1120000x128 where
  offsetDims := [1]
  collapsedSliceDims := [0]
  operandBatchingDims := []
  startIndicesBatchingDims := []
  startIndexMap := [0]
  indexVectorDim := 1
  sliceSizes := ![1, 128]
  wf := gather_S120000x128_S1120000x1_S1120000x128_1_0_n_n_0_1_1128_wf
def scatter_S120000x128_S1120000x1_S1120000x128_1_0_0_1 : ScatterDims S120000x128 S1120000x1 S1120000x128 where
  updateWindowDims := [1]
  insertedWindowDims := [0]
  scatterDimsToOperandDims := [0]
  indexVectorDim := 1
  wf := scatter_S120000x128_S1120000x1_S1120000x128_1_0_0_1_wf
def dot_S120000x128_S128x32_S120000x32_1_0_0_1_n_n : DotDims S120000x128 S128x32 S120000x32 where
  lhsContracting := [1]
  rhsContracting := [0]
  lhsNonContracting := [0]
  rhsNonContracting := [1]
  lhsBatch := []
  rhsBatch := []
  wf := dot_S120000x128_S128x32_S120000x32_1_0_0_1_n_n_wf
def gather_S120000x32_S1120000x1_S1120000x32_1_0_n_n_0_1_132 : GatherDims S120000x32 S1120000x1 S1120000x32 where
  offsetDims := [1]
  collapsedSliceDims := [0]
  operandBatchingDims := []
  startIndicesBatchingDims := []
  startIndexMap := [0]
  indexVectorDim := 1
  sliceSizes := ![1, 32]
  wf := gather_S120000x32_S1120000x1_S1120000x32_1_0_n_n_0_1_132_wf
def scatter_S120000x32_S1120000x1_S1120000x32_1_0_0_1 : ScatterDims S120000x32 S1120000x1 S1120000x32 where
  updateWindowDims := [1]
  insertedWindowDims := [0]
  scatterDimsToOperandDims := [0]
  indexVectorDim := 1
  wf := scatter_S120000x32_S1120000x1_S1120000x32_1_0_0_1_wf
def dot_S120000x32_S32x128_S120000x128_1_0_0_1_n_n : DotDims S120000x32 S32x128 S120000x128 where
  lhsContracting := [1]
  rhsContracting := [0]
  lhsNonContracting := [0]
  rhsNonContracting := [1]
  lhsBatch := []
  rhsBatch := []
  wf := dot_S120000x32_S32x128_S120000x128_1_0_0_1_n_n_wf

class Facts : Prop extends Facts₀ where

variable [Facts]
-- ==== Proof.KernelRun.lean ====
/-
  The kernel program's run, with its three results named. Every weakly fair execution of the program ends, nothing
  faulting, with each result buffer holding what the last boundary of the program's walk through its host stretches
  and its three Pallas calls leaves there, and with the ten argument arrays as launched. The walk itself — the
  contents of every buffer at each boundary, each call's arrays at what its write-backs leave — is the one the frame
  of the program is proved over; here the final state is read at the result buffers as well as at the arguments.
-/
import proofs.«163890_j4827543241244_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the results at the last boundary's contents, the arguments as launched. -/
theorem run : θ_run defs (onTc (τ := τ) (main (F := F))) ⟨m, fun _ => 0, ρ⟩ (fun r => ∀ c : Dev nD,
      r.2.mem ((c.tc : Thread nD τ).loc main_v103) = W10 m ρ c (Proc.devRef .tc main_v103)
      ∧ r.2.mem ((c.tc : Thread nD τ).loc main_v104) = W10 m ρ c (Proc.devRef .tc main_v104)
      ∧ r.2.mem ((c.tc : Thread nD τ).loc main_v105) = W10 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v103 (by decide)),
       h c _ (mem_uc main_v104 (by decide)),
       h c _ (mem_uc main_v105 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Results

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibDenseSteps.lean ====
/-
  The dense steps of a two-layer graph convolution, entry by entry on the extended reals.

  * `prod x w`: the product of an [a, n] matrix with an [n, b] matrix; entry (p, e) is the sum over k of
    x(p, k) * w(k, e). The matrix unit's product into a zero accumulator and the host's general product
    contracting axis 1 with axis 0 are both this function, whatever float formats hold the operands.
  * `biasRelu g β`: a length-n vector β added along every row of an [a, n] matrix g, then the larger of the
    sum and zero, entry by entry: max (g(p, e) + β(e), 0).
  * `addRow g β`: the same without the maximum: g(p, e) + β(e).
  Each is proved equal to the spelling a kernel body gives it on a block of rows (the vector given as a one-row
  matrix and repeated down the rows) and to the spelling of the host program (the vector laid along axis 1 of a
  one-row matrix, then repeated along axis 0). No finiteness is used: only the definitions of the operations.
-/
import Idealize.ShloMosaic.PureOps.Ideal.Laws
import Idealize.ShloMosaic.Lib.ValueIdx
import Idealize.ShloMosaic.Lib.ValueLayout
import Idealize.ShloMosaic.Lib.Pipeline.Value
import proofs.«163890_j4827543241244_1_alg».proof.Proof.LibColsMatmul

noncomputable section

namespace Cert.Layers

open Idealize.ShloMosaic Idealize.ShloMosaic.ValueIdx Cert.ColsMatmul

variable {a n b : ℕ}

/-- The matrix product: entry (p, e) is the sum over k of x(p, k) * w(k, e). -/
def prod (x : (⟨2, ![a, n]⟩ : Shape).Idx → EReal) (w : (⟨2, ![n, b]⟩ : Shape).Idx → EReal) :
    (⟨2, ![a, b]⟩ : Shape).Idx → EReal :=
  fun i => ∑ k : Fin n, x (ix2 (i 0) k) * w (ix2 k (i 1))

theorem prod_apply (x : (⟨2, ![a, n]⟩ : Shape).Idx → EReal) (w : (⟨2, ![n, b]⟩ : Shape).Idx → EReal) (p : Fin a) (e : Fin b) :
    prod x w (ix2 p e) = ∑ k : Fin n, x (ix2 p k) * w (ix2 k e) := rfl

/-- A one-row matrix β added along every row of g, then the larger of the sum and zero. -/
def biasReluRow (g : (⟨2, ![a, n]⟩ : Shape).Idx → EReal) (β : (⟨2, ![1, n]⟩ : Shape).Idx → EReal) :
    (⟨2, ![a, n]⟩ : Shape).Idx → EReal :=
  fun i => max (g i + β (ix2 (0 : Fin 1) (i 1))) (Ideal.ofBits .f32 0x00000000#32)

/-- A vector β added along every row of g, then the larger of the sum and zero. -/
def biasRelu (g : (⟨2, ![a, n]⟩ : Shape).Idx → EReal) (β : (⟨1, ![n]⟩ : Shape).Idx → EReal) :
    (⟨2, ![a, n]⟩ : Shape).Idx → EReal :=
  fun i => max (g i + β (ix1 (i 1))) (Ideal.ofBits .f32 0x00000000#32)

/-- A one-row matrix β added along every row of g. -/
def addRowRow (g : (⟨2, ![a, n]⟩ : Shape).Idx → EReal) (β : (⟨2, ![1, n]⟩ : Shape).Idx → EReal) :
    (⟨2, ![a, n]⟩ : Shape).Idx → EReal :=
  fun i => g i + β (ix2 (0 : Fin 1) (i 1))

/-- A vector β added along every row of g. -/
def addRow (g : (⟨2, ![a, n]⟩ : Shape).Idx → EReal) (β : (⟨1, ![n]⟩ : Shape).Idx → EReal) :
    (⟨2, ![a, n]⟩ : Shape).Idx → EReal :=
  fun i => g i + β (ix1 (i 1))

/-- An entry of a product depends on one row of the left factor and one column of the right factor. -/
theorem prod_congr {a' b' : ℕ} (x : (⟨2, ![a, n]⟩ : Shape).Idx → EReal) (w : (⟨2, ![n, b]⟩ : Shape).Idx → EReal)
    (x' : (⟨2, ![a', n]⟩ : Shape).Idx → EReal) (w' : (⟨2, ![n, b']⟩ : Shape).Idx → EReal)
    (i : (⟨2, ![a, b]⟩ : Shape).Idx) (i' : (⟨2, ![a', b']⟩ : Shape).Idx)
    (hx : ∀ k : Fin n, x (ix2 (i 0) k) = x' (ix2 (i' 0) k)) (hw : ∀ k : Fin n, w (ix2 k (i 1)) = w' (ix2 k (i' 1))) :
    prod x w i = prod x' w' i' :=
  Finset.sum_congr rfl fun k _ => by rw [hx k, hw k]

/-- An entry of the rectified sum depends on that entry of the matrix and that entry of the row. -/
theorem biasReluRow_congr {a' : ℕ} (g : (⟨2, ![a, n]⟩ : Shape).Idx → EReal) (β : (⟨2, ![1, n]⟩ : Shape).Idx → EReal)
    (g' : (⟨2, ![a', n]⟩ : Shape).Idx → EReal) (β' : (⟨2, ![1, n]⟩ : Shape).Idx → EReal) (p : Fin a) (p' : Fin a') (k : Fin n)
    (hg : g (ix2 p k) = g' (ix2 p' k)) (hβ : β (ix2 (0 : Fin 1) k) = β' (ix2 (0 : Fin 1) k)) :
    biasReluRow g β (ix2 p k) = biasReluRow g' β' (ix2 p' k) := by
  show max (g (ix2 p k) + β (ix2 (0 : Fin 1) k)) _ = max (g' (ix2 p' k) + β' (ix2 (0 : Fin 1) k)) _
  rw [hg, hβ]

/-- An entry of the sum with a row depends on that entry of the matrix and that entry of the row. -/
theorem addRowRow_congr {a' : ℕ} (g : (⟨2, ![a, n]⟩ : Shape).Idx → EReal) (β : (⟨2, ![1, n]⟩ : Shape).Idx → EReal)
    (g' : (⟨2, ![a', n]⟩ : Shape).Idx → EReal) (β' : (⟨2, ![1, n]⟩ : Shape).Idx → EReal)
    (i : (⟨2, ![a, n]⟩ : Shape).Idx) (i' : (⟨2, ![a', n]⟩ : Shape).Idx)
    (hg : g i = g' i') (hβ : β (ix2 (0 : Fin 1) (i 1)) = β' (ix2 (0 : Fin 1) (i' 1))) :
    addRowRow g β i = addRowRow g' β' i' := by
  show g i + β (ix2 (0 : Fin 1) (i 1)) = g' i' + β' (ix2 (0 : Fin 1) (i' 1))
  rw [hg, hβ]

/-! ## The two products -/

variable (wf : DotDims.WF ⟨2, ![a, n]⟩ ⟨2, ![n, b]⟩ ⟨2, ![a, b]⟩ [1] [0] [0] [1] [] [])

/-- The matrix unit's product of an [a, n] and an [n, b] operand into the zero accumulator is `prod`. -/
theorem matmul_eq_prod {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) :
    FloatOps.matmul d none x w (constant ⟨2, ![a, b]⟩ .f32 0x00000000#32) = prod x w := by
  funext i
  obtain ⟨p, e, rfl⟩ : ∃ (p : Fin a) (e : Fin b), i = ix2 p e := ⟨i 0, i 1, eq_ix2 i⟩
  exact cols_matmul wf d hd x w p e

/-- The host's general product contracting axis 1 of the left operand with axis 0 of the right is `prod`. -/
theorem dotGeneral_eq_prod {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) :
    Host.dotGeneral d none x w = prod x w := by
  subst hd
  funext i
  obtain ⟨p, e, rfl⟩ : ∃ (p : Fin a) (e : Fin b), i = ix2 p e := ⟨i 0, i 1, eq_ix2 i⟩
  exact (Ideal.dotGeneral_apply (colsDims wf) none .single x w (ix2 p e)).trans (contraction_cols wf x w p e)

/-! ## A vector along the rows -/

/-- A vector seen as a one-row matrix reads its entry e at (0, e). -/
theorem row_of_vector (β : (⟨1, ![n]⟩ : Shape).Idx → EReal) (h : (⟨1, ![n]⟩ : Shape).ShapeCasts ⟨2, ![1, n]⟩) (e : Fin n) :
    shapeCast ⟨2, ![1, n]⟩ β h (ix2 (0 : Fin 1) e) = β (ix1 e) :=
  shapeCast_a_1a_apply β h (0 : Fin 1) e

theorem biasReluRow_row (g : (⟨2, ![a, n]⟩ : Shape).Idx → EReal) (β : (⟨1, ![n]⟩ : Shape).Idx → EReal)
    (h : (⟨1, ![n]⟩ : Shape).ShapeCasts ⟨2, ![1, n]⟩) :
    biasReluRow g (shapeCast ⟨2, ![1, n]⟩ β h) = biasRelu g β := by
  funext i
  obtain ⟨p, e, rfl⟩ : ∃ (p : Fin a) (e : Fin n), i = ix2 p e := ⟨i 0, i 1, eq_ix2 i⟩
  show max (g (ix2 p e) + shapeCast ⟨2, ![1, n]⟩ β h (ix2 (0 : Fin 1) e)) (Ideal.ofBits .f32 0x00000000#32)
    = max (g (ix2 p e) + β (ix1 e)) (Ideal.ofBits .f32 0x00000000#32)
  rw [row_of_vector]

theorem addRowRow_row (g : (⟨2, ![a, n]⟩ : Shape).Idx → EReal) (β : (⟨1, ![n]⟩ : Shape).Idx → EReal)
    (h : (⟨1, ![n]⟩ : Shape).ShapeCasts ⟨2, ![1, n]⟩) :
    addRowRow g (shapeCast ⟨2, ![1, n]⟩ β h) = addRow g β := by
  funext i
  obtain ⟨p, e, rfl⟩ : ∃ (p : Fin a) (e : Fin n), i = ix2 p e := ⟨i 0, i 1, eq_ix2 i⟩
  show g (ix2 p e) + shapeCast ⟨2, ![1, n]⟩ β h (ix2 (0 : Fin 1) e) = g (ix2 p e) + β (ix1 e)
  rw [row_of_vector]

/-! ## The kernel's vector spelling, on a block of rows -/

/-- A block g and a one-row block β: β repeated down the rows, added, and the maximum with a zero splat. -/
theorem kernel_biasRelu (g : FVec Ideal ⟨2, ![a, n]⟩ .f32) (β : FVec Ideal ⟨2, ![1, n]⟩ .f32)
    (hg : (⟨2, ![a, n]⟩ : Shape).ShapeCasts ⟨2, ![a, n]⟩) (hβ : (⟨2, ![1, n]⟩ : Shape).ShapeCasts ⟨2, ![1, n]⟩)
    (hb : (⟨2, ![1, n]⟩ : Shape).Broadcasts ⟨2, ![a, n]⟩) :
    maximumf (addf (shapeCast ⟨2, ![a, n]⟩ g hg) (broadcastTo ⟨2, ![a, n]⟩ (shapeCast ⟨2, ![1, n]⟩ β hβ) hb))
        (broadcast ⟨2, ![a, n]⟩ (Scalar.ofBits (F := Ideal) .f32 0x00000000#32))
      = biasReluRow g β := by
  rw [shapeCast_self, shapeCast_self]
  funext i
  obtain ⟨p, e, rfl⟩ : ∃ (p : Fin a) (e : Fin n), i = ix2 p e := ⟨i 0, i 1, eq_ix2 i⟩
  show max (g (ix2 p e) + broadcastTo ⟨2, ![a, n]⟩ β hb (ix2 p e)) (Ideal.ofBits .f32 0x00000000#32) = _
  rw [broadcastTo_1b_ab_apply]
  rfl

/-- The same without the maximum. -/
theorem kernel_addRow (g : FVec Ideal ⟨2, ![a, n]⟩ .f32) (β : FVec Ideal ⟨2, ![1, n]⟩ .f32)
    (hg : (⟨2, ![a, n]⟩ : Shape).ShapeCasts ⟨2, ![a, n]⟩) (hβ : (⟨2, ![1, n]⟩ : Shape).ShapeCasts ⟨2, ![1, n]⟩)
    (hb : (⟨2, ![1, n]⟩ : Shape).Broadcasts ⟨2, ![a, n]⟩) :
    addf (shapeCast ⟨2, ![a, n]⟩ g hg) (broadcastTo ⟨2, ![a, n]⟩ (shapeCast ⟨2, ![1, n]⟩ β hβ) hb) = addRowRow g β := by
  rw [shapeCast_self, shapeCast_self]
  funext i
  obtain ⟨p, e, rfl⟩ : ∃ (p : Fin a) (e : Fin n), i = ix2 p e := ⟨i 0, i 1, eq_ix2 i⟩
  show g (ix2 p e) + broadcastTo ⟨2, ![a, n]⟩ β hb (ix2 p e) = _
  rw [broadcastTo_1b_ab_apply]
  rfl

/-! ## The host's spelling -/

/-- The host lays a vector along axis 1 of a one-row matrix and repeats that along axis 0: at (p, e) it reads β(e). -/
theorem host_row (β : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (e : Fin n) :
    broadcastInDim ⟨2, ![a, n]⟩ ![0, 1] h2 (broadcastInDim ⟨2, ![1, n]⟩ ![1] h1 β) (ix2 p e) = β (ix1 e) := by
  rw [broadcastInDim_apply ![0, 1] h2 _ (ix2 p e) (ix2 (0 : Fin 1) e) (fun ax => by
    match ax with
    | ⟨0, _⟩ => rfl
    | ⟨1, _⟩ =>
      show e.val = if n = 1 then 0 else e.val
      split
      · have := e.isLt; omega
      · rfl)]
  exact broadcastInDim_apply ![1] h1 β (ix2 (0 : Fin 1) e) (ix1 e) (fun ax => by
    match ax with
    | ⟨0, _⟩ =>
      show e.val = if n = 1 then 0 else e.val
      split
      · have := e.isLt; omega
      · rfl)

/-- The host's sum with a vector along the rows. -/
theorem host_addRow (g : FVec Ideal ⟨2, ![a, n]⟩ .f32) (β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1]) :
    addf g (broadcastInDim ⟨2, ![a, n]⟩ ![0, 1] h2 (broadcastInDim ⟨2, ![1, n]⟩ ![1] h1 β)) = addRow g β := by
  funext i
  obtain ⟨p, e, rfl⟩ : ∃ (p : Fin a) (e : Fin n), i = ix2 p e := ⟨i 0, i 1, eq_ix2 i⟩
  show g (ix2 p e) + broadcastInDim ⟨2, ![a, n]⟩ ![0, 1] h2 (broadcastInDim ⟨2, ![1, n]⟩ ![1] h1 β) (ix2 p e) = _
  rw [host_row]
  rfl

/-- The host's sum with a vector along the rows followed by the maximum with a zero splat. -/
theorem host_biasRelu (g : FVec Ideal ⟨2, ![a, n]⟩ .f32) (β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1])
    (h0 : (⟨0, ![]⟩ : Shape).BroadcastsInDim ⟨2, ![a, n]⟩ ![]) :
    maximumf (addf g (broadcastInDim ⟨2, ![a, n]⟩ ![0, 1] h2 (broadcastInDim ⟨2, ![1, n]⟩ ![1] h1 β)))
        (broadcastInDim ⟨2, ![a, n]⟩ ![] h0 (constant (F := Ideal) ⟨0, ![]⟩ .f32 0x00000000#32))
      = biasRelu g β := by
  rw [host_addRow]
  funext i
  show max (addRow g β i) (broadcastInDim ⟨2, ![a, n]⟩ ![] h0 (constant (F := Ideal) ⟨0, ![]⟩ .f32 0x00000000#32) i) = _
  rw [broadcastInDim_apply ![] h0 _ i ix0 (fun ax => ax.elim0)]
  rfl

end Cert.Layers

end
-- ==== Proof.Call0.lean ====
/-
  Pallas call 0 of the kernel: the grid walks the 12 blocks of 10000 consecutive rows of a [120000, 128] matrix x; at each
  block the body multiplies the block by the whole [128, 128] matrix w on the matrix unit and stores
  the [10000, 128] result as that block of rows of the output. Whatever the buffers hold when the call is entered, the
  output array ends as the product x · w: entry (p, e) is the sum over k of x(p, k) * w(k, e), which only
  reads row p of x — a row of the block that holds p. On the extended reals the roundings to a shorter float format
  on the way into the matrix unit are the identity, and no finiteness is used.
-/
import proofs.«163890_j4827543241244_1_alg».proof.Proof.Gen.KernelIdeal.Frame
import proofs.«163890_j4827543241244_1_alg».proof.Proof.LibDenseSteps
import Idealize.ShloMosaic.Lib.Pipeline.Value
import Idealize.ShloMosaic.Lib.ValueIdx
import Idealize.ShloMosaic.Lib.ValueLayout

set_option maxRecDepth 16384

noncomputable section

namespace Cert.KernelIdeal.Call0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value: the product of its two loaded blocks. -/
theorem payload (x0 : Vec Ideal S10000x128 .f32) (x1 : Vec Ideal S128x128 .f32) :
    k0_pay1 (F := Ideal) x0 x1 = Layers.prod x0 x1 := by
  unfold k0_pay1
  show FloatOps.matmul dot_S10000x128_S128x128_S10000x128_1_0_0_1_n_n none _ _ (constant S10000x128 .f32 0x00000000#32) = _
  rw [Layers.matmul_eq_prod dot_S10000x128_S128x128_S10000x128_1_0_0_1_n_n_wf dot_S10000x128_S128x128_S10000x128_1_0_0_1_n_n rfl, shapeCast_self]
  rfl

/-- The block index maps over the grid: x's and the output's blocks move down the rows together, one block per grid
    point; w is always the whole matrix. -/
theorem index_maps : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every block of rows is some grid point's. -/
theorem index_onto : ∀ q : Fin 12, ∃ t : Fin cfg0.N, win0_2.index t = ![q.val, 0] :=
  (by decide +kernel : ∀ q : Fin 12, ∃ t : Fin grid0.N, win0_2.index t = ![q.val, 0])

/-- What grid point t writes back is block t of the whole-array result. -/
theorem written_block (c : Dev nD) (t : Fin cfg0.N) :
    (dat0 V c).flushed 2 t = ((cfg0.win 2).blk t).view.read (Elt Ideal) (Layers.prod (V c main_v1) (V c main_arg4)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  rw [payload]
  obtain ⟨e0, e1, e2, e3, e4⟩ := index_maps t
  funext j
  have hx : ∀ k : Fin 128, ((cfg0.win 0).blk t).view.emb (ix2 (j 0) k) = ix2 ((((cfg0.win 2).blk t).view.emb j) 0) k := fun k => by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hw : ∀ k : Fin 128, ((cfg0.win 1).blk t).view.emb (ix2 k (j 1)) = ix2 k ((((cfg0.win 2).blk t).view.emb j) 1) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact Layers.prod_congr (iblk0 V c 0 t) (iblk0 V c 1 t) (V c main_v1) (V c main_arg4) j (((cfg0.win 2).blk t).view.emb j)
      (fun k => congrArg (V c main_v1) (hx k))
      (fun k => congrArg (V c main_arg4) (hw k))

/-- An index of the output array lies in point t's block iff each coordinate lies in the block's range. -/
theorem mem_block (t : Fin cfg0.N) (i : S120000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v8).slice (win0_2.rect t)).set ↔ _
  rw [View.set_slice_whole, Rect.mem_set_unit]
  exact Iff.rfl

/-- Row r of the output lies in the block of the grid point r / 10000. -/
theorem covered (i : S120000x128.Idx) : ∃ t : Fin cfg0.N, (cfg0.win 2).flush t = true ∧ i ∈ ((cfg0.win 2).blk t).view.set := by
  have hi0 : (i 0).val < 120000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the call, from the buffers as the call finds them. -/
theorem output (c : Dev nD) : (dat0 V c).arrAt 2 cfg0.N = Layers.prod (V c main_v1) (V c main_arg4) :=
  (dat0 V c).arrAt_eq_of_cover 2 _ (fun t _ => written_block V c t) covered

end Cert.KernelIdeal.Call0

end
-- ==== Proof.Call1.lean ====
/-
  Pallas call 1 of the kernel: the grid walks the 12 blocks of 10000 consecutive rows of a [120000, 128] matrix x; at each
  block the body multiplies the block by the whole [128, 32] matrix w on the matrix unit and stores
  the [10000, 32] result as that block of rows of the output. Whatever the buffers hold when the call is entered, the
  output array ends as the product x · w: entry (p, e) is the sum over k of x(p, k) * w(k, e), which only
  reads row p of x — a row of the block that holds p. On the extended reals the roundings to a shorter float format
  on the way into the matrix unit are the identity, and no finiteness is used.
-/
import proofs.«163890_j4827543241244_1_alg».proof.Proof.Gen.KernelIdeal.Frame
import proofs.«163890_j4827543241244_1_alg».proof.Proof.LibDenseSteps
import Idealize.ShloMosaic.Lib.Pipeline.Value
import Idealize.ShloMosaic.Lib.ValueIdx
import Idealize.ShloMosaic.Lib.ValueLayout

set_option maxRecDepth 16384

noncomputable section

namespace Cert.KernelIdeal.Call1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value: the product of its two loaded blocks. -/
theorem payload (x0 : Vec Ideal S10000x128 .f32) (x1 : Vec Ideal S128x32 .f32) :
    k1_pay1 (F := Ideal) x0 x1 = Layers.prod x0 x1 := by
  unfold k1_pay1
  show FloatOps.matmul dot_S10000x128_S128x32_S10000x32_1_0_0_1_n_n none _ _ (constant S10000x32 .f32 0x00000000#32) = _
  rw [Layers.matmul_eq_prod dot_S10000x128_S128x32_S10000x32_1_0_0_1_n_n_wf dot_S10000x128_S128x32_S10000x32_1_0_0_1_n_n rfl, shapeCast_self]
  rfl

/-- The block index maps over the grid: x's and the output's blocks move down the rows together, one block per grid
    point; w is always the whole matrix. -/
theorem index_maps : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- Every block of rows is some grid point's. -/
theorem index_onto : ∀ q : Fin 12, ∃ t : Fin cfg1.N, win1_2.index t = ![q.val, 0] :=
  (by decide +kernel : ∀ q : Fin 12, ∃ t : Fin grid1.N, win1_2.index t = ![q.val, 0])

/-- What grid point t writes back is block t of the whole-array result. -/
theorem written_block (c : Dev nD) (t : Fin cfg1.N) :
    (dat1 V c).flushed 2 t = ((cfg1.win 2).blk t).view.read (Elt Ideal) (Layers.prod (V c main_v54) (V c main_arg6)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S128x32) zero_offsets]
  rw [payload]
  obtain ⟨e0, e1, e2, e3, e4⟩ := index_maps t
  funext j
  have hx : ∀ k : Fin 128, ((cfg1.win 0).blk t).view.emb (ix2 (j 0) k) = ix2 ((((cfg1.win 2).blk t).view.emb j) 0) k := fun k => by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  have hw : ∀ k : Fin 128, ((cfg1.win 1).blk t).view.emb (ix2 k (j 1)) = ix2 k ((((cfg1.win 2).blk t).view.emb j) 1) := fun k => by
    funext a; apply Fin.ext
    match a with
    | ⟨0, _⟩ => show win1_1.index t (0 : Fin 2) * 128 + 1 * k.val = k.val; omega
    | ⟨1, _⟩ => show win1_1.index t (1 : Fin 2) * 32 + 1 * (j 1).val = win1_2.index t (1 : Fin 2) * 32 + 1 * (j 1).val; omega
  exact Layers.prod_congr (iblk1 V c 0 t) (iblk1 V c 1 t) (V c main_v54) (V c main_arg6) j (((cfg1.win 2).blk t).view.emb j)
      (fun k => congrArg (V c main_v54) (hx k))
      (fun k => congrArg (V c main_arg6) (hw k))

/-- An index of the output array lies in point t's block iff each coordinate lies in the block's range. -/
theorem mem_block (t : Fin cfg1.N) (i : S120000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v55).slice (win1_2.rect t)).set ↔ _
  rw [View.set_slice_whole, Rect.mem_set_unit]
  exact Iff.rfl

/-- Row r of the output lies in the block of the grid point r / 10000. -/
theorem covered (i : S120000x32.Idx) : ∃ t : Fin cfg1.N, (cfg1.win 2).flush t = true ∧ i ∈ ((cfg1.win 2).blk t).view.set := by
  have hi0 : (i 0).val < 120000 := (i 0).isLt
  have hi1 : (i 1).val < 32 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 32 ≤ (i 1).val ∧ (i 1).val < win1_2.index t (1 : Fin 2) * 32 + 32; omega

/-- The output array after the call, from the buffers as the call finds them. -/
theorem output (c : Dev nD) : (dat1 V c).arrAt 2 cfg1.N = Layers.prod (V c main_v54) (V c main_arg6) :=
  (dat1 V c).arrAt_eq_of_cover 2 _ (fun t _ => written_block V c t) covered

end Cert.KernelIdeal.Call1

end
-- ==== Proof.Call2.lean ====
/-
  Pallas call 2 of the kernel: the grid walks the 12 blocks of 10000 consecutive rows of a [120000, 32] matrix x; at each
  block the body multiplies the block by the whole [32, 128] matrix w on the matrix unit, adds the one-row matrix β along every row, and stores
  the [10000, 128] result as that block of rows of the output. Whatever the buffers hold when the call is entered, the
  output array ends as x · w + β (β along every row): entry (p, e) is the sum over k of x(p, k) * w(k, e) plus β(0, e), which only
  reads row p of x — a row of the block that holds p. On the extended reals the roundings to a shorter float format
  on the way into the matrix unit are the identity, and no finiteness is used.
-/
import proofs.«163890_j4827543241244_1_alg».proof.Proof.Gen.KernelIdeal.Frame
import proofs.«163890_j4827543241244_1_alg».proof.Proof.LibDenseSteps
import Idealize.ShloMosaic.Lib.Pipeline.Value
import Idealize.ShloMosaic.Lib.ValueIdx
import Idealize.ShloMosaic.Lib.ValueLayout

set_option maxRecDepth 16384

noncomputable section

namespace Cert.KernelIdeal.Call2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value: the product of its two loaded blocks plus the loaded row. -/
theorem payload (x0 : Vec Ideal S10000x32 .f32) (x1 : Vec Ideal S32x128 .f32) (x2 : Vec Ideal S1x128 .f32) :
    k2_pay1 (F := Ideal) x0 x1 x2 = Layers.addRowRow (Layers.prod x0 x1) x2 := by
  unfold k2_pay1
  dsimp only
  change addf (FloatOps.matmul dot_S10000x32_S32x128_S10000x128_1_0_0_1_n_n none _ _ (constant S10000x128 .f32 0x00000000#32)) _ = _
  rw [Layers.matmul_eq_prod dot_S10000x32_S32x128_S10000x128_1_0_0_1_n_n_wf dot_S10000x32_S32x128_S10000x128_1_0_0_1_n_n rfl, shapeCast_self, shapeCast_self]
  funext i
  obtain ⟨p, e, rfl⟩ : ∃ (p : Fin 10000) (e : Fin 128), i = ix2 p e := ⟨i 0, i 1, eq_ix2 i⟩
  show Layers.prod _ _ (ix2 p e) + broadcastTo S10000x128 (x2 : S1x128.Idx → EReal) broadcasts_S1x128_S10000x128 (ix2 p e) = _
  rw [broadcastTo_1b_ab_apply]
  rfl

/-- The block index maps over the grid: x's and the output's blocks move down the rows together, one block per grid
    point; w and β are always the whole matrix. -/
theorem index_maps : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_3.index t (1 : Fin 2) = 0
    ∧ win2_2.index t (0 : Fin 2) = 0 ∧ win2_2.index t (1 : Fin 2) = 0 :=
  (by decide +kernel : ∀ t : Fin grid2.N, _)

/-- Every block of rows is some grid point's. -/
theorem index_onto : ∀ q : Fin 12, ∃ t : Fin cfg2.N, win2_3.index t = ![q.val, 0] :=
  (by decide +kernel : ∀ q : Fin 12, ∃ t : Fin grid2.N, win2_3.index t = ![q.val, 0])

/-- What grid point t writes back is block t of the whole-array result. -/
theorem written_block (c : Dev nD) (t : Fin cfg2.N) :
    (dat2 V c).flushed 3 t = ((cfg2.win 3).blk t).view.read (Elt Ideal) (Layers.addRowRow (Layers.prod (V c main_v100) (V c main_arg8)) (V c main_v101)) := by
  show (cfg2.win 3).cut (grid2.coords t) ((dat2 V c).after 3 t) = _
  rw [after2_3]
  unfold out2_3
  rw [View.canon_unit_zero zero_offsets]
  simp only [View.ld_unit_zero (S := S10000x32) zero_offsets, View.ld_unit_zero (S := S32x128) zero_offsets, View.ld_unit_zero (S := S1x128) zero_offsets]
  rw [payload]
  obtain ⟨e0, e1, e2, e3, e4, e5, e6⟩ := index_maps t
  funext j
  have hx : ∀ k : Fin 32, ((cfg2.win 0).blk t).view.emb (ix2 (j 0) k) = ix2 ((((cfg2.win 3).blk t).view.emb j) 0) k := fun k => by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 32 + 1 * k.val = k.val; omega
  have hw : ∀ k : Fin 32, ((cfg2.win 1).blk t).view.emb (ix2 k (j 1)) = ix2 k ((((cfg2.win 3).blk t).view.emb j) 1) := fun k => by
    funext a; apply Fin.ext
    match a with
    | ⟨0, _⟩ => show win2_1.index t (0 : Fin 2) * 32 + 1 * k.val = k.val; omega
    | ⟨1, _⟩ => show win2_1.index t (1 : Fin 2) * 128 + 1 * (j 1).val = win2_3.index t (1 : Fin 2) * 128 + 1 * (j 1).val; omega
  have hb : ((cfg2.win 2).blk t).view.emb (ix2 (0 : Fin 1) (j 1)) = ix2 (0 : Fin 1) ((((cfg2.win 3).blk t).view.emb j) 1) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega
  exact Layers.addRowRow_congr _ (iblk2 V c 2 t) _ (V c main_v101) j (((cfg2.win 3).blk t).view.emb j)
    (Layers.prod_congr (iblk2 V c 0 t) (iblk2 V c 1 t) (V c main_v100) (V c main_arg8) j (((cfg2.win 3).blk t).view.emb j)
      (fun k => congrArg (V c main_v100) (hx k))
      (fun k => congrArg (V c main_arg8) (hw k)))
    (congrArg (V c main_v101) hb)

/-- An index of the output array lies in point t's block iff each coordinate lies in the block's range. -/
theorem mem_block (t : Fin cfg2.N) (i : S120000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v102).slice (win2_3.rect t)).set ↔ _
  rw [View.set_slice_whole, Rect.mem_set_unit]
  exact Iff.rfl

/-- Row r of the output lies in the block of the grid point r / 10000. -/
theorem covered (i : S120000x128.Idx) : ∃ t : Fin cfg2.N, (cfg2.win 3).flush t = true ∧ i ∈ ((cfg2.win 3).blk t).view.set := by
  have hi0 : (i 0).val < 120000 := (i 0).isLt
  have hi1 : (i 1).val < 128 := (i 1).isLt
  obtain ⟨t, ht⟩ := index_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- The output array after the call, from the buffers as the call finds them. -/
theorem output (c : Dev nD) : (dat2 V c).arrAt 3 cfg2.N = Layers.addRowRow (Layers.prod (V c main_v100) (V c main_arg8)) (V c main_v101) :=
  (dat2 V c).arrAt_eq_of_cover 3 _ (fun t _ => written_block V c t) covered

end Cert.KernelIdeal.Call2

end
-- ==== Proof.Stages.lean ====
/-
  The host-side stages of the two-layer graph autoencoder, each as ONE function of the arrays it reads, in the host
  program's own operations. Between the stages sit the three dense products (features · W1, hidden · W2 and
  latent · Wdec + bdec), which the kernel program computes in Pallas calls and the reference by general products; everything
  else — stacking and padding the features, building the edge lists, the degree normalisation, gathering and
  scatter-adding the messages, the bias and the rectifier — is the same sequence of host operations in both programs.
-/
import proofs.«163890_j4827543241244_1_alg».proof.ReferenceIdeal
import proofs.«163890_j4827543241244_1_alg».proof.Proof.Gen.ReferenceIdeal

set_option maxRecDepth 8192

noncomputable section

namespace Cert.ReferenceIdeal.Stages

open Cert.ReferenceIdeal Cert.ReferenceIdeal.Gen Idealize.ShloMosaic Idealize.ShloMosaic.TcCoe Idealize.SL.Sem

variable {F : FTy → Type} [FloatOps F]

/-- The node features: the members' rows, then the providers' rows padded with zero columns to the members' width. -/
def features (a0 : (⟨S100000x128, .f32⟩ : BufTy).Contents (Elt F)) (a1 : (⟨S20000x64, .f32⟩ : BufTy).Contents (Elt F)) :
    (⟨S120000x128, .f32⟩ : BufTy).Contents (Elt F) :=
  concatenate S120000x128 0 [⟨S100000x128, a0⟩, ⟨S20000x128, (pad S20000x128 ![0, 0] ![0, 64] ![0, 0] a1 (sitofp .f32 (constantI S_ 32 0#32)) pads_S20000x64_S20000x128_000_0640 h_S_)⟩] concatenates_S100000x128_S20000x128_S120000x128_d0

/-- The source node of each of the million directed edges: the provider of each pair, then the member of each pair (shifted past the members). -/
def edgeSources (a2 : (⟨S500000, .i32⟩ : BufTy).Contents (Elt F)) (a3 : (⟨S500000, .i32⟩ : BufTy).Contents (Elt F)) :
    (⟨S1000000, .i32⟩ : BufTy).Contents (Elt F) :=
  concatenate S1000000 0 [⟨S500000, a2⟩, ⟨S500000, (addi a3 (broadcastInDim S500000 ![] bcast_S_S500000 (constantI S_ 32 100000#32)))⟩] concatenates_S500000_S500000_S1000000_d0

/-- The target node of each of the million directed edges: the member of each pair (shifted), then the provider of each pair. -/
def edgeTargets (a2 : (⟨S500000, .i32⟩ : BufTy).Contents (Elt F)) (a3 : (⟨S500000, .i32⟩ : BufTy).Contents (Elt F)) :
    (⟨S1000000, .i32⟩ : BufTy).Contents (Elt F) :=
  concatenate S1000000 0 [⟨S500000, (addi a3 (broadcastInDim S500000 ![] bcast_S_S500000 (constantI S_ 32 100000#32)))⟩, ⟨S500000, a2⟩] concatenates_S500000_S500000_S1000000_d0

/-- One graph-convolution aggregation at width 128 of already transformed features xw: a self-loop is added at every node, each edge's message is the source's row of xw scaled by the product of the inverse square roots of the two end nodes' degrees, the messages are summed into their target nodes, and the bias is added along every row. -/
def aggregateWide (xw : (⟨S120000x128, .f32⟩ : BufTy).Contents (Elt F)) (s : (⟨S1000000, .i32⟩ : BufTy).Contents (Elt F)) (d : (⟨S1000000, .i32⟩ : BufTy).Contents (Elt F)) (β : (⟨S128, .f32⟩ : BufTy).Contents (Elt F)) :
    (⟨S120000x128, .f32⟩ : BufTy).Contents (Elt F) :=
  addf (Host.scatterAdd scatter_S120000x128_S1120000x1_S1120000x128_1_0_0_1 (broadcastInDim S120000x128 ![] bcast_S_S120000x128 (constant S_ .f32 0x00000000#32)) (broadcastInDim S1120000x1 ![0] bcast_S1120000_S1120000x1_0 (concatenate S1120000 0 [⟨S1000000, d⟩, ⟨S120000, (iotaInDim S120000 32 0)⟩] concatenates_S1000000_S120000_S1120000_d0)) (mulf (broadcastInDim S1120000x128 ![0, 1] bcast_S1120000x1_S1120000x128_0_1 (broadcastInDim S1120000x1 ![0] bcast_S1120000_S1120000x1_0 (mulf (Host.gather gather_S120000_S1120000x1_S1120000_n_0_n_n_0_1_1 (Host.powf (Host.scatterAdd scatter_S120000_S1120000x1_S1120000_n_0_0_1 (broadcastInDim S120000 ![] bcast_S_S120000 (constant S_ .f32 0x00000000#32)) (broadcastInDim S1120000x1 ![0] bcast_S1120000_S1120000x1_0 (select (cmpi .slt (concatenate S1120000 0 [⟨S1000000, d⟩, ⟨S120000, (iotaInDim S120000 32 0)⟩] concatenates_S1000000_S120000_S1120000_d0) (broadcastInDim S1120000 ![] bcast_S_S1120000 (constantI S_ 32 0#32))) (addi (concatenate S1120000 0 [⟨S1000000, d⟩, ⟨S120000, (iotaInDim S120000 32 0)⟩] concatenates_S1000000_S120000_S1120000_d0) (broadcastInDim S1120000 ![] bcast_S_S1120000 (constantI S_ 32 120000#32))) (concatenate S1120000 0 [⟨S1000000, d⟩, ⟨S120000, (iotaInDim S120000 32 0)⟩] concatenates_S1000000_S120000_S1120000_d0))) (broadcastInDim S1120000 ![] bcast_S_S1120000 (constant S_ .f32 0x3F800000#32))) (broadcastInDim S120000 ![] bcast_S_S120000 (constant S_ .f32 0xBF000000#32))) (broadcastInDim S1120000x1 ![0] bcast_S1120000_S1120000x1_0 (select (cmpi .slt (concatenate S1120000 0 [⟨S1000000, s⟩, ⟨S120000, (iotaInDim S120000 32 0)⟩] concatenates_S1000000_S120000_S1120000_d0) (broadcastInDim S1120000 ![] bcast_S_S1120000 (constantI S_ 32 0#32))) (addi (concatenate S1120000 0 [⟨S1000000, s⟩, ⟨S120000, (iotaInDim S120000 32 0)⟩] concatenates_S1000000_S120000_S1120000_d0) (broadcastInDim S1120000 ![] bcast_S_S1120000 (constantI S_ 32 120000#32))) (concatenate S1120000 0 [⟨S1000000, s⟩, ⟨S120000, (iotaInDim S120000 32 0)⟩] concatenates_S1000000_S120000_S1120000_d0)))) (Host.gather gather_S120000_S1120000x1_S1120000_n_0_n_n_0_1_1 (Host.powf (Host.scatterAdd scatter_S120000_S1120000x1_S1120000_n_0_0_1 (broadcastInDim S120000 ![] bcast_S_S120000 (constant S_ .f32 0x00000000#32)) (broadcastInDim S1120000x1 ![0] bcast_S1120000_S1120000x1_0 (select (cmpi .slt (concatenate S1120000 0 [⟨S1000000, d⟩, ⟨S120000, (iotaInDim S120000 32 0)⟩] concatenates_S1000000_S120000_S1120000_d0) (broadcastInDim S1120000 ![] bcast_S_S1120000 (constantI S_ 32 0#32))) (addi (concatenate S1120000 0 [⟨S1000000, d⟩, ⟨S120000, (iotaInDim S120000 32 0)⟩] concatenates_S1000000_S120000_S1120000_d0) (broadcastInDim S1120000 ![] bcast_S_S1120000 (constantI S_ 32 120000#32))) (concatenate S1120000 0 [⟨S1000000, d⟩, ⟨S120000, (iotaInDim S120000 32 0)⟩] concatenates_S1000000_S120000_S1120000_d0))) (broadcastInDim S1120000 ![] bcast_S_S1120000 (constant S_ .f32 0x3F800000#32))) (broadcastInDim S120000 ![] bcast_S_S120000 (constant S_ .f32 0xBF000000#32))) (broadcastInDim S1120000x1 ![0] bcast_S1120000_S1120000x1_0 (select (cmpi .slt (concatenate S1120000 0 [⟨S1000000, d⟩, ⟨S120000, (iotaInDim S120000 32 0)⟩] concatenates_S1000000_S120000_S1120000_d0) (broadcastInDim S1120000 ![] bcast_S_S1120000 (constantI S_ 32 0#32))) (addi (concatenate S1120000 0 [⟨S1000000, d⟩, ⟨S120000, (iotaInDim S120000 32 0)⟩] concatenates_S1000000_S120000_S1120000_d0) (broadcastInDim S1120000 ![] bcast_S_S1120000 (constantI S_ 32 120000#32))) (concatenate S1120000 0 [⟨S1000000, d⟩, ⟨S120000, (iotaInDim S120000 32 0)⟩] concatenates_S1000000_S120000_S1120000_d0))))))) (Host.gather gather_S120000x128_S1120000x1_S1120000x128_1_0_n_n_0_1_1128 xw (broadcastInDim S1120000x1 ![0] bcast_S1120000_S1120000x1_0 (select (cmpi .slt (concatenate S1120000 0 [⟨S1000000, s⟩, ⟨S120000, (iotaInDim S120000 32 0)⟩] concatenates_S1000000_S120000_S1120000_d0) (broadcastInDim S1120000 ![] bcast_S_S1120000 (constantI S_ 32 0#32))) (addi (concatenate S1120000 0 [⟨S1000000, s⟩, ⟨S120000, (iotaInDim S120000 32 0)⟩] concatenates_S1000000_S120000_S1120000_d0) (broadcastInDim S1120000 ![] bcast_S_S1120000 (constantI S_ 32 120000#32))) (concatenate S1120000 0 [⟨S1000000, s⟩, ⟨S120000, (iotaInDim S120000 32 0)⟩] concatenates_S1000000_S120000_S1120000_d0)))))) (broadcastInDim S120000x128 ![0, 1] bcast_S1x128_S120000x128_0_1 (broadcastInDim S1x128 ![1] bcast_S128_S1x128_1 (β)))

/-- The larger of each entry and zero. -/
def rectify (h : (⟨S120000x128, .f32⟩ : BufTy).Contents (Elt F)) :
    (⟨S120000x128, .f32⟩ : BufTy).Contents (Elt F) :=
  maximumf h (broadcastInDim S120000x128 ![] bcast_S_S120000x128 (constant S_ .f32 0x00000000#32))

/-- The same aggregation at width 32. -/
def aggregateNarrow (xw : (⟨S120000x32, .f32⟩ : BufTy).Contents (Elt F)) (s : (⟨S1000000, .i32⟩ : BufTy).Contents (Elt F)) (d : (⟨S1000000, .i32⟩ : BufTy).Contents (Elt F)) (β : (⟨S32, .f32⟩ : BufTy).Contents (Elt F)) :
    (⟨S120000x32, .f32⟩ : BufTy).Contents (Elt F) :=
  addf (Host.scatterAdd scatter_S120000x32_S1120000x1_S1120000x32_1_0_0_1 (broadcastInDim S120000x32 ![] bcast_S_S120000x32 (constant S_ .f32 0x00000000#32)) (broadcastInDim S1120000x1 ![0] bcast_S1120000_S1120000x1_0 (concatenate S1120000 0 [⟨S1000000, d⟩, ⟨S120000, (iotaInDim S120000 32 0)⟩] concatenates_S1000000_S120000_S1120000_d0)) (mulf (broadcastInDim S1120000x32 ![0, 1] bcast_S1120000x1_S1120000x32_0_1 (broadcastInDim S1120000x1 ![0] bcast_S1120000_S1120000x1_0 (mulf (Host.gather gather_S120000_S1120000x1_S1120000_n_0_n_n_0_1_1 (Host.powf (Host.scatterAdd scatter_S120000_S1120000x1_S1120000_n_0_0_1 (broadcastInDim S120000 ![] bcast_S_S120000 (constant S_ .f32 0x00000000#32)) (broadcastInDim S1120000x1 ![0] bcast_S1120000_S1120000x1_0 (select (cmpi .slt (concatenate S1120000 0 [⟨S1000000, d⟩, ⟨S120000, (iotaInDim S120000 32 0)⟩] concatenates_S1000000_S120000_S1120000_d0) (broadcastInDim S1120000 ![] bcast_S_S1120000 (constantI S_ 32 0#32))) (addi (concatenate S1120000 0 [⟨S1000000, d⟩, ⟨S120000, (iotaInDim S120000 32 0)⟩] concatenates_S1000000_S120000_S1120000_d0) (broadcastInDim S1120000 ![] bcast_S_S1120000 (constantI S_ 32 120000#32))) (concatenate S1120000 0 [⟨S1000000, d⟩, ⟨S120000, (iotaInDim S120000 32 0)⟩] concatenates_S1000000_S120000_S1120000_d0))) (broadcastInDim S1120000 ![] bcast_S_S1120000 (constant S_ .f32 0x3F800000#32))) (broadcastInDim S120000 ![] bcast_S_S120000 (constant S_ .f32 0xBF000000#32))) (broadcastInDim S1120000x1 ![0] bcast_S1120000_S1120000x1_0 (select (cmpi .slt (concatenate S1120000 0 [⟨S1000000, s⟩, ⟨S120000, (iotaInDim S120000 32 0)⟩] concatenates_S1000000_S120000_S1120000_d0) (broadcastInDim S1120000 ![] bcast_S_S1120000 (constantI S_ 32 0#32))) (addi (concatenate S1120000 0 [⟨S1000000, s⟩, ⟨S120000, (iotaInDim S120000 32 0)⟩] concatenates_S1000000_S120000_S1120000_d0) (broadcastInDim S1120000 ![] bcast_S_S1120000 (constantI S_ 32 120000#32))) (concatenate S1120000 0 [⟨S1000000, s⟩, ⟨S120000, (iotaInDim S120000 32 0)⟩] concatenates_S1000000_S120000_S1120000_d0)))) (Host.gather gather_S120000_S1120000x1_S1120000_n_0_n_n_0_1_1 (Host.powf (Host.scatterAdd scatter_S120000_S1120000x1_S1120000_n_0_0_1 (broadcastInDim S120000 ![] bcast_S_S120000 (constant S_ .f32 0x00000000#32)) (broadcastInDim S1120000x1 ![0] bcast_S1120000_S1120000x1_0 (select (cmpi .slt (concatenate S1120000 0 [⟨S1000000, d⟩, ⟨S120000, (iotaInDim S120000 32 0)⟩] concatenates_S1000000_S120000_S1120000_d0) (broadcastInDim S1120000 ![] bcast_S_S1120000 (constantI S_ 32 0#32))) (addi (concatenate S1120000 0 [⟨S1000000, d⟩, ⟨S120000, (iotaInDim S120000 32 0)⟩] concatenates_S1000000_S120000_S1120000_d0) (broadcastInDim S1120000 ![] bcast_S_S1120000 (constantI S_ 32 120000#32))) (concatenate S1120000 0 [⟨S1000000, d⟩, ⟨S120000, (iotaInDim S120000 32 0)⟩] concatenates_S1000000_S120000_S1120000_d0))) (broadcastInDim S1120000 ![] bcast_S_S1120000 (constant S_ .f32 0x3F800000#32))) (broadcastInDim S120000 ![] bcast_S_S120000 (constant S_ .f32 0xBF000000#32))) (broadcastInDim S1120000x1 ![0] bcast_S1120000_S1120000x1_0 (select (cmpi .slt (concatenate S1120000 0 [⟨S1000000, d⟩, ⟨S120000, (iotaInDim S120000 32 0)⟩] concatenates_S1000000_S120000_S1120000_d0) (broadcastInDim S1120000 ![] bcast_S_S1120000 (constantI S_ 32 0#32))) (addi (concatenate S1120000 0 [⟨S1000000, d⟩, ⟨S120000, (iotaInDim S120000 32 0)⟩] concatenates_S1000000_S120000_S1120000_d0) (broadcastInDim S1120000 ![] bcast_S_S1120000 (constantI S_ 32 120000#32))) (concatenate S1120000 0 [⟨S1000000, d⟩, ⟨S120000, (iotaInDim S120000 32 0)⟩] concatenates_S1000000_S120000_S1120000_d0))))))) (Host.gather gather_S120000x32_S1120000x1_S1120000x32_1_0_n_n_0_1_132 xw (broadcastInDim S1120000x1 ![0] bcast_S1120000_S1120000x1_0 (select (cmpi .slt (concatenate S1120000 0 [⟨S1000000, s⟩, ⟨S120000, (iotaInDim S120000 32 0)⟩] concatenates_S1000000_S120000_S1120000_d0) (broadcastInDim S1120000 ![] bcast_S_S1120000 (constantI S_ 32 0#32))) (addi (concatenate S1120000 0 [⟨S1000000, s⟩, ⟨S120000, (iotaInDim S120000 32 0)⟩] concatenates_S1000000_S120000_S1120000_d0) (broadcastInDim S1120000 ![] bcast_S_S1120000 (constantI S_ 32 120000#32))) (concatenate S1120000 0 [⟨S1000000, s⟩, ⟨S120000, (iotaInDim S120000 32 0)⟩] concatenates_S1000000_S120000_S1120000_d0)))))) (broadcastInDim S120000x32 ![0, 1] bcast_S1x32_S120000x32_0_1 (broadcastInDim S1x32 ![1] bcast_S32_S1x32_1 (β)))

end Cert.ReferenceIdeal.Stages

end
-- ==== Proof.LibAfterStages.lean ====
/-
  A straight line of host operations, read in stretches.

  The contents of a device's buffers after a list of host operations are a fold over the list. For a list that is two
  stretches one after the other, the fold is the second stretch's fold over the first's. A buffer that no operation of
  a stretch writes comes through that stretch unchanged; the tactic below proves it for a literal stretch by comparing
  the buffer with each operation's result buffer.
-/
import Idealize.ShloMosaic.Lib.StableHlo.Run

namespace Idealize.ShloMosaic.StableHlo

variable {τ : Topo} {sig : RefSig} {Val : EltTy → Type}

/-- The fold over two stretches is the second's over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- 'kept_through [L]' closes a goal 'after L V b = V b' for a literal stretch L (given by the names that unfold it)
    none of whose operations writes the buffer b. -/
macro "kept_through" "[" ds:Lean.Parser.Tactic.simpLemma,* "]" : tactic =>
  `(tactic| (
    refine after_of_forall_not_mem _ _ (List.forall_iff_forall_mem.mp ?_)
    simp only [$ds,*, List.Forall, nullary_writes, unary_writes, binary_writes, ternary_writes, quaternary_writes,
      reshape_writes, nary_writes, Finset.mem_singleton]
    repeat' apply And.intro
    all_goals exact devRef_ne_of_ne (by decide)))

end Idealize.ShloMosaic.StableHlo
-- ==== Proof.LibStretchResults.lean ====
/-
  Reading one buffer after a straight line of host operations, when some operations lay two arrays one after the other
  along an axis.

  What a buffer holds after a literal list of host operations is found by walking the list backwards: the buffer's
  writer gives its function applied to its operands' contents, and each operand is read the same way. A rewriting pass
  does this at every operand — except under a concatenation, whose pieces sit in a list of (shape, array) pairs where
  the pass does not descend. Naming the two-piece concatenation as a function of its two arrays (`cat2`) puts the
  pieces back in reach: the pass folds each two-piece concatenation into `cat2` as it meets it and goes on inside.
  `cat2` unfolds to the concatenation by definition, so a goal left in terms of it still closes against the same
  operations written out.
-/
import Idealize.ShloMosaic.Lib.StableHlo.Run
import Idealize.ShloMosaic.PureOps.ShapeOps

namespace Idealize.ShloMosaic.StableHlo

/-- Two arrays laid one after the other along an axis. -/
def cat2 {α : Type} (t : Shape) (a : Fin t.rank) (s₁ s₂ : Shape) (h : Shape.Concatenates [s₁, s₂] t a)
    (p : s₁.Idx → α) (q : s₂.Idx → α) : t.Idx → α :=
  concatenate t a [⟨s₁, p⟩, ⟨s₂, q⟩] h

theorem cat2_fold {α : Type} (t : Shape) (a : Fin t.rank) (s₁ s₂ : Shape) (h : Shape.Concatenates [s₁, s₂] t a)
    (p : s₁.Idx → α) (q : s₂.Idx → α) : concatenate t a [⟨s₁, p⟩, ⟨s₂, q⟩] h = cat2 t a s₁ s₂ h p q := rfl

/-- 'stretch_results' rewrites a goal 'after L V b = …', for a literal stretch L of host operations, to the operations'
    functions applied to V at the buffers the stretch reads and does not write — also inside the two operands of every
    two-piece concatenation, which it leaves as 'cat2'. -/
macro "stretch_results" : tactic =>
  `(tactic| (simp (disch := decide) only [after_cons, after_nil, cat2_fold,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.KernelWalk.lean ====
/-
  What the kernel program's result buffers hold at the end of its walk, as functions of the ten arguments. The walk
  goes: host operations that stack the features and build the two edge lists; Pallas call 0 (features · W1); the
  first aggregation, bias and rectifier on the host; Pallas call 1 (hidden · W2); the second aggregation and bias on the
  host, and the last bias vector viewed as a one-row matrix; Pallas call 2 (latent · Wdec + bdec along every row); the
  two slices and the zero vector. At every boundary the buffers that later steps read are named here: a buffer no
  operation of a stretch writes comes through that stretch unchanged, and a call changes only its own output array.
-/
import proofs.«163890_j4827543241244_1_alg».proof.Proof.KernelRun
import proofs.«163890_j4827543241244_1_alg».proof.Proof.Call0
import proofs.«163890_j4827543241244_1_alg».proof.Proof.Call1
import proofs.«163890_j4827543241244_1_alg».proof.Proof.Call2
import proofs.«163890_j4827543241244_1_alg».proof.Proof.Stages
import proofs.«163890_j4827543241244_1_alg».proof.Proof.LibAfterStages
import proofs.«163890_j4827543241244_1_alg».proof.Proof.LibStretchResults
import Idealize.ShloMosaic.Lib.StableHlo.Run

set_option maxRecDepth 16384

noncomputable section

namespace Cert.KernelIdeal.Results

open Cert.KernelIdeal Cert.KernelIdeal.Gen Idealize.ShloMosaic Idealize.ShloMosaic.TcCoe Idealize.SL.Sem Idealize.ShloMosaic.StableHlo
open Cert.ReferenceIdeal.Stages

/-! ## Each host stretch, from any contents W of the buffers -/

section Stretches

variable (W : Valuation τ sig (Elt Ideal))

theorem stacked_features : after hostOps0_2 (after hostOps0_1 (after hostOps0 W)) (Proc.devRef .tc main_v1)
    = features (W (Proc.devRef .tc main_arg0)) (W (Proc.devRef .tc main_arg1)) := by
  dsimp only [hostOps0, hostOps0_1, hostOps0_2]
  stretch_results <;> rfl

theorem edge_sources : after hostOps0_2 (after hostOps0_1 (after hostOps0 W)) (Proc.devRef .tc main_v4)
    = edgeSources (W (Proc.devRef .tc main_arg2)) (W (Proc.devRef .tc main_arg3)) := by
  dsimp only [hostOps0, hostOps0_1, hostOps0_2]
  stretch_results <;> rfl

theorem edge_targets : after hostOps0_2 (after hostOps0_1 (after hostOps0 W)) (Proc.devRef .tc main_v7)
    = edgeTargets (W (Proc.devRef .tc main_arg2)) (W (Proc.devRef .tc main_arg3)) := by
  dsimp only [hostOps0, hostOps0_1, hostOps0_2]
  stretch_results <;> rfl

theorem first_layer_sum : after hostOps1 W (Proc.devRef .tc main_v53)
    = aggregateWide (W (Proc.devRef .tc main_v8)) (W (Proc.devRef .tc main_v4)) (W (Proc.devRef .tc main_v7)) (W (Proc.devRef .tc main_arg5)) := by
  dsimp only [hostOps1]
  stretch_results <;> rfl

theorem rectified : after hostOps1_1 W (Proc.devRef .tc main_v54) = rectify (W (Proc.devRef .tc main_v53)) := by
  dsimp only [hostOps1_1]
  stretch_results <;> rfl

theorem first_layer : after hostOps1_1 (after hostOps1 W) (Proc.devRef .tc main_v54)
    = rectify (aggregateWide (W (Proc.devRef .tc main_v8)) (W (Proc.devRef .tc main_v4)) (W (Proc.devRef .tc main_v7)) (W (Proc.devRef .tc main_arg5))) :=
  (rectified (after hostOps1 W)).trans (congrArg rectify (first_layer_sum W))

theorem second_layer : after hostOps2 W (Proc.devRef .tc main_v100)
    = aggregateNarrow (W (Proc.devRef .tc main_v55)) (W (Proc.devRef .tc main_v4)) (W (Proc.devRef .tc main_v7)) (W (Proc.devRef .tc main_arg7)) := by
  dsimp only [hostOps2]
  stretch_results <;> rfl

theorem bias_row : after hostOps2 W (Proc.devRef .tc main_v101)
    = shapeCast S1x128 (W (Proc.devRef .tc main_arg9)) shapeCasts_S128_S1x128 := by
  dsimp only [hostOps2]
  stretch_results <;> rfl

theorem members_slice : after hostOps3 W (Proc.devRef .tc main_v103)
    = extractStridedSlice S100000x128 ![0, 0] (W (Proc.devRef .tc main_v102)) slices_S120000x128_S100000x128_0_0 := by
  dsimp only [hostOps3]
  stretch_results <;> rfl

theorem providers_slice : after hostOps3 W (Proc.devRef .tc main_v104)
    = extractStridedSlice S20000x64 ![100000, 0] (W (Proc.devRef .tc main_v102)) slices_S120000x128_S20000x64_100000_0 := by
  dsimp only [hostOps3]
  stretch_results <;> rfl

theorem zero_logits : after hostOps3 W (Proc.devRef .tc main_v105)
    = broadcastInDim S500000 ![] bcast_S_S500000 (constant (F := Ideal) S_ .f32 0x00000000#32) := by
  dsimp only [hostOps3]
  stretch_results <;> rfl

end Stretches

/-! ## The walk -/

variable (m : (ℓ : Loc nD τ sig) → Buf (Elt Ideal) ℓ) (ρ : Dev nD → PrngReg) (c : Dev nD)

/-! ### Entering call 0 -/

theorem entry0_arg4 : W3 m ρ c (Proc.devRef .tc main_arg4) = (m ((c : Thread nD τ).loc main_arg4)) :=
    calc W3 m ρ c (Proc.devRef .tc main_arg4)
      _ = W2 m ρ c (Proc.devRef .tc main_arg4) := by kept_through [hostOps0_2]
      _ = W1 m ρ c (Proc.devRef .tc main_arg4) := by kept_through [hostOps0_1]
      _ = W0 m ρ c (Proc.devRef .tc main_arg4) := by kept_through [hostOps0]
      _ = (m ((c : Thread nD τ).loc main_arg4)) := rfl

theorem entry0_arg5 : W3 m ρ c (Proc.devRef .tc main_arg5) = (m ((c : Thread nD τ).loc main_arg5)) :=
    calc W3 m ρ c (Proc.devRef .tc main_arg5)
      _ = W2 m ρ c (Proc.devRef .tc main_arg5) := by kept_through [hostOps0_2]
      _ = W1 m ρ c (Proc.devRef .tc main_arg5) := by kept_through [hostOps0_1]
      _ = W0 m ρ c (Proc.devRef .tc main_arg5) := by kept_through [hostOps0]
      _ = (m ((c : Thread nD τ).loc main_arg5)) := rfl

theorem entry0_arg6 : W3 m ρ c (Proc.devRef .tc main_arg6) = (m ((c : Thread nD τ).loc main_arg6)) :=
    calc W3 m ρ c (Proc.devRef .tc main_arg6)
      _ = W2 m ρ c (Proc.devRef .tc main_arg6) := by kept_through [hostOps0_2]
      _ = W1 m ρ c (Proc.devRef .tc main_arg6) := by kept_through [hostOps0_1]
      _ = W0 m ρ c (Proc.devRef .tc main_arg6) := by kept_through [hostOps0]
      _ = (m ((c : Thread nD τ).loc main_arg6)) := rfl

theorem entry0_arg7 : W3 m ρ c (Proc.devRef .tc main_arg7) = (m ((c : Thread nD τ).loc main_arg7)) :=
    calc W3 m ρ c (Proc.devRef .tc main_arg7)
      _ = W2 m ρ c (Proc.devRef .tc main_arg7) := by kept_through [hostOps0_2]
      _ = W1 m ρ c (Proc.devRef .tc main_arg7) := by kept_through [hostOps0_1]
      _ = W0 m ρ c (Proc.devRef .tc main_arg7) := by kept_through [hostOps0]
      _ = (m ((c : Thread nD τ).loc main_arg7)) := rfl

theorem entry0_arg8 : W3 m ρ c (Proc.devRef .tc main_arg8) = (m ((c : Thread nD τ).loc main_arg8)) :=
    calc W3 m ρ c (Proc.devRef .tc main_arg8)
      _ = W2 m ρ c (Proc.devRef .tc main_arg8) := by kept_through [hostOps0_2]
      _ = W1 m ρ c (Proc.devRef .tc main_arg8) := by kept_through [hostOps0_1]
      _ = W0 m ρ c (Proc.devRef .tc main_arg8) := by kept_through [hostOps0]
      _ = (m ((c : Thread nD τ).loc main_arg8)) := rfl

theorem entry0_arg9 : W3 m ρ c (Proc.devRef .tc main_arg9) = (m ((c : Thread nD τ).loc main_arg9)) :=
    calc W3 m ρ c (Proc.devRef .tc main_arg9)
      _ = W2 m ρ c (Proc.devRef .tc main_arg9) := by kept_through [hostOps0_2]
      _ = W1 m ρ c (Proc.devRef .tc main_arg9) := by kept_through [hostOps0_1]
      _ = W0 m ρ c (Proc.devRef .tc main_arg9) := by kept_through [hostOps0]
      _ = (m ((c : Thread nD τ).loc main_arg9)) := rfl

theorem entry0_features : W3 m ρ c (Proc.devRef .tc main_v1) = features (m ((c : Thread nD τ).loc main_arg0)) (m ((c : Thread nD τ).loc main_arg1)) :=
  stacked_features (W0 m ρ c)
theorem entry0_sources : W3 m ρ c (Proc.devRef .tc main_v4) = edgeSources (m ((c : Thread nD τ).loc main_arg2)) (m ((c : Thread nD τ).loc main_arg3)) :=
  edge_sources (W0 m ρ c)
theorem entry0_targets : W3 m ρ c (Proc.devRef .tc main_v7) = edgeTargets (m ((c : Thread nD τ).loc main_arg2)) (m ((c : Thread nD τ).loc main_arg3)) :=
  edge_targets (W0 m ρ c)

/-! ### Leaving call 0 -/

/-- The features times W1. -/
abbrev xw1 := Layers.prod (features (m ((c : Thread nD τ).loc main_arg0)) (m ((c : Thread nD τ).loc main_arg1))) (m ((c : Thread nD τ).loc main_arg4))

theorem exit0_product : W4 m ρ c (Proc.devRef .tc main_v8) = xw1 m c := by
  rw [show W4 m ρ c (Proc.devRef .tc main_v8) = (dat0 (V3 m ρ) c).arrAt 2 cfg0.N from W4_arr m ρ c 2, Call0.output (V3 m ρ) c]
  show Layers.prod (W3 m ρ c (Proc.devRef .tc main_v1)) (W3 m ρ c (Proc.devRef .tc main_arg4)) = _
  rw [entry0_features, entry0_arg4]
theorem exit0_sources : W4 m ρ c (Proc.devRef .tc main_v4) = edgeSources (m ((c : Thread nD τ).loc main_arg2)) (m ((c : Thread nD τ).loc main_arg3)) :=
  (W4_of_ne m ρ c main_v4 (by decide)).trans (entry0_sources m ρ c)
theorem exit0_targets : W4 m ρ c (Proc.devRef .tc main_v7) = edgeTargets (m ((c : Thread nD τ).loc main_arg2)) (m ((c : Thread nD τ).loc main_arg3)) :=
  (W4_of_ne m ρ c main_v7 (by decide)).trans (entry0_targets m ρ c)
theorem exit0_arg5 : W4 m ρ c (Proc.devRef .tc main_arg5) = (m ((c : Thread nD τ).loc main_arg5)) :=
  (W4_of_ne m ρ c main_arg5 (by decide)).trans (entry0_arg5 m ρ c)
theorem exit0_arg6 : W4 m ρ c (Proc.devRef .tc main_arg6) = (m ((c : Thread nD τ).loc main_arg6)) :=
  (W4_of_ne m ρ c main_arg6 (by decide)).trans (entry0_arg6 m ρ c)
theorem exit0_arg7 : W4 m ρ c (Proc.devRef .tc main_arg7) = (m ((c : Thread nD τ).loc main_arg7)) :=
  (W4_of_ne m ρ c main_arg7 (by decide)).trans (entry0_arg7 m ρ c)
theorem exit0_arg8 : W4 m ρ c (Proc.devRef .tc main_arg8) = (m ((c : Thread nD τ).loc main_arg8)) :=
  (W4_of_ne m ρ c main_arg8 (by decide)).trans (entry0_arg8 m ρ c)
theorem exit0_arg9 : W4 m ρ c (Proc.devRef .tc main_arg9) = (m ((c : Thread nD τ).loc main_arg9)) :=
  (W4_of_ne m ρ c main_arg9 (by decide)).trans (entry0_arg9 m ρ c)

/-! ### Entering call 1 -/

/-- The hidden layer: the first aggregation of the features times W1, with bias b1, rectified. -/
abbrev hidden := rectify (aggregateWide (xw1 m c) (edgeSources (m ((c : Thread nD τ).loc main_arg2)) (m ((c : Thread nD τ).loc main_arg3))) (edgeTargets (m ((c : Thread nD τ).loc main_arg2)) (m ((c : Thread nD τ).loc main_arg3))) (m ((c : Thread nD τ).loc main_arg5)))

theorem entry1_hidden : W6 m ρ c (Proc.devRef .tc main_v54) = hidden m c := by
  rw [show W6 m ρ c (Proc.devRef .tc main_v54) = _ from first_layer (W4 m ρ c), exit0_product, exit0_sources, exit0_targets, exit0_arg5]
theorem entry1_sources : W6 m ρ c (Proc.devRef .tc main_v4) = edgeSources (m ((c : Thread nD τ).loc main_arg2)) (m ((c : Thread nD τ).loc main_arg3)) :=
  ((by kept_through [hostOps1_1] : W6 m ρ c (Proc.devRef .tc main_v4) = W5 m ρ c (Proc.devRef .tc main_v4)).trans (by kept_through [hostOps1] : W5 m ρ c (Proc.devRef .tc main_v4) = W4 m ρ c (Proc.devRef .tc main_v4))).trans (exit0_sources m ρ c)
theorem entry1_targets : W6 m ρ c (Proc.devRef .tc main_v7) = edgeTargets (m ((c : Thread nD τ).loc main_arg2)) (m ((c : Thread nD τ).loc main_arg3)) :=
  ((by kept_through [hostOps1_1] : W6 m ρ c (Proc.devRef .tc main_v7) = W5 m ρ c (Proc.devRef .tc main_v7)).trans (by kept_through [hostOps1] : W5 m ρ c (Proc.devRef .tc main_v7) = W4 m ρ c (Proc.devRef .tc main_v7))).trans (exit0_targets m ρ c)
theorem entry1_arg6 : W6 m ρ c (Proc.devRef .tc main_arg6) = (m ((c : Thread nD τ).loc main_arg6)) :=
  ((by kept_through [hostOps1_1] : W6 m ρ c (Proc.devRef .tc main_arg6) = W5 m ρ c (Proc.devRef .tc main_arg6)).trans (by kept_through [hostOps1] : W5 m ρ c (Proc.devRef .tc main_arg6) = W4 m ρ c (Proc.devRef .tc main_arg6))).trans (exit0_arg6 m ρ c)
theorem entry1_arg7 : W6 m ρ c (Proc.devRef .tc main_arg7) = (m ((c : Thread nD τ).loc main_arg7)) :=
  ((by kept_through [hostOps1_1] : W6 m ρ c (Proc.devRef .tc main_arg7) = W5 m ρ c (Proc.devRef .tc main_arg7)).trans (by kept_through [hostOps1] : W5 m ρ c (Proc.devRef .tc main_arg7) = W4 m ρ c (Proc.devRef .tc main_arg7))).trans (exit0_arg7 m ρ c)
theorem entry1_arg8 : W6 m ρ c (Proc.devRef .tc main_arg8) = (m ((c : Thread nD τ).loc main_arg8)) :=
  ((by kept_through [hostOps1_1] : W6 m ρ c (Proc.devRef .tc main_arg8) = W5 m ρ c (Proc.devRef .tc main_arg8)).trans (by kept_through [hostOps1] : W5 m ρ c (Proc.devRef .tc main_arg8) = W4 m ρ c (Proc.devRef .tc main_arg8))).trans (exit0_arg8 m ρ c)
theorem entry1_arg9 : W6 m ρ c (Proc.devRef .tc main_arg9) = (m ((c : Thread nD τ).loc main_arg9)) :=
  ((by kept_through [hostOps1_1] : W6 m ρ c (Proc.devRef .tc main_arg9) = W5 m ρ c (Proc.devRef .tc main_arg9)).trans (by kept_through [hostOps1] : W5 m ρ c (Proc.devRef .tc main_arg9) = W4 m ρ c (Proc.devRef .tc main_arg9))).trans (exit0_arg9 m ρ c)

/-! ### Leaving call 1 -/

/-- The hidden layer times W2. -/
abbrev xw2 := Layers.prod (hidden m c) (m ((c : Thread nD τ).loc main_arg6))

theorem exit1_product : W7 m ρ c (Proc.devRef .tc main_v55) = xw2 m c := by
  rw [show W7 m ρ c (Proc.devRef .tc main_v55) = (dat1 (V6 m ρ) c).arrAt 2 cfg1.N from W7_arr m ρ c 2, Call1.output (V6 m ρ) c]
  show Layers.prod (W6 m ρ c (Proc.devRef .tc main_v54)) (W6 m ρ c (Proc.devRef .tc main_arg6)) = _
  rw [entry1_hidden, entry1_arg6]
theorem exit1_sources : W7 m ρ c (Proc.devRef .tc main_v4) = edgeSources (m ((c : Thread nD τ).loc main_arg2)) (m ((c : Thread nD τ).loc main_arg3)) :=
  (W7_of_ne m ρ c main_v4 (by decide)).trans (entry1_sources m ρ c)
theorem exit1_targets : W7 m ρ c (Proc.devRef .tc main_v7) = edgeTargets (m ((c : Thread nD τ).loc main_arg2)) (m ((c : Thread nD τ).loc main_arg3)) :=
  (W7_of_ne m ρ c main_v7 (by decide)).trans (entry1_targets m ρ c)
theorem exit1_arg7 : W7 m ρ c (Proc.devRef .tc main_arg7) = (m ((c : Thread nD τ).loc main_arg7)) :=
  (W7_of_ne m ρ c main_arg7 (by decide)).trans (entry1_arg7 m ρ c)
theorem exit1_arg8 : W7 m ρ c (Proc.devRef .tc main_arg8) = (m ((c : Thread nD τ).loc main_arg8)) :=
  (W7_of_ne m ρ c main_arg8 (by decide)).trans (entry1_arg8 m ρ c)
theorem exit1_arg9 : W7 m ρ c (Proc.devRef .tc main_arg9) = (m ((c : Thread nD τ).loc main_arg9)) :=
  (W7_of_ne m ρ c main_arg9 (by decide)).trans (entry1_arg9 m ρ c)

/-! ### Entering call 2 -/

/-- The latent layer: the second aggregation of the hidden layer times W2, with bias b2. -/
abbrev latent := aggregateNarrow (xw2 m c) (edgeSources (m ((c : Thread nD τ).loc main_arg2)) (m ((c : Thread nD τ).loc main_arg3))) (edgeTargets (m ((c : Thread nD τ).loc main_arg2)) (m ((c : Thread nD τ).loc main_arg3))) (m ((c : Thread nD τ).loc main_arg7))

theorem entry2_latent : W8 m ρ c (Proc.devRef .tc main_v100) = latent m c := by
  rw [show W8 m ρ c (Proc.devRef .tc main_v100) = _ from second_layer (W7 m ρ c), exit1_product, exit1_sources, exit1_targets, exit1_arg7]

theorem entry2_bias : W8 m ρ c (Proc.devRef .tc main_v101) = shapeCast S1x128 (m ((c : Thread nD τ).loc main_arg9)) shapeCasts_S128_S1x128 := by
  rw [show W8 m ρ c (Proc.devRef .tc main_v101) = _ from bias_row (W7 m ρ c), exit1_arg9]

theorem entry2_arg8 : W8 m ρ c (Proc.devRef .tc main_arg8) = (m ((c : Thread nD τ).loc main_arg8)) :=
  (by kept_through [hostOps2] : W8 m ρ c (Proc.devRef .tc main_arg8) = W7 m ρ c (Proc.devRef .tc main_arg8)).trans (exit1_arg8 m ρ c)

/-! ### Leaving call 2, and the results -/

/-- The reconstruction: the latent layer times Wdec, plus bdec along every row. -/
abbrev reconstruction := Layers.addRow (Layers.prod (latent m c) (m ((c : Thread nD τ).loc main_arg8))) (m ((c : Thread nD τ).loc main_arg9))

theorem exit2_reconstruction : W9 m ρ c (Proc.devRef .tc main_v102) = reconstruction m c := by
  rw [show W9 m ρ c (Proc.devRef .tc main_v102) = (dat2 (V8 m ρ) c).arrAt 3 cfg2.N from W9_arr m ρ c 3, Call2.output (V8 m ρ) c]
  show Layers.addRowRow (Layers.prod (W8 m ρ c (Proc.devRef .tc main_v100)) (W8 m ρ c (Proc.devRef .tc main_arg8))) (W8 m ρ c (Proc.devRef .tc main_v101)) = _
  rw [entry2_latent, entry2_arg8, entry2_bias, Layers.addRowRow_row]

theorem result_members : W10 m ρ c (Proc.devRef .tc main_v103)
    = extractStridedSlice S100000x128 ![0, 0] (reconstruction m c) slices_S120000x128_S100000x128_0_0 := by
  rw [show W10 m ρ c (Proc.devRef .tc main_v103) = _ from members_slice (W9 m ρ c), exit2_reconstruction]

theorem result_providers : W10 m ρ c (Proc.devRef .tc main_v104)
    = extractStridedSlice S20000x64 ![100000, 0] (reconstruction m c) slices_S120000x128_S20000x64_100000_0 := by
  rw [show W10 m ρ c (Proc.devRef .tc main_v104) = _ from providers_slice (W9 m ρ c), exit2_reconstruction]

theorem result_logits : W10 m ρ c (Proc.devRef .tc main_v105)
    = broadcastInDim S500000 ![] bcast_S_S500000 (constant (F := Ideal) S_ .f32 0x00000000#32) :=
  zero_logits (W9 m ρ c)

/-- The kernel program's run: the members' rows and the providers' rows of the reconstruction, a zero vector, and the
    arguments as launched. -/
theorem run_values : θ_run defs (onTc (τ := τ) (main (F := Ideal))) ⟨m, fun _ => 0, ρ⟩ (fun r => ∀ c : Dev nD,
      r.2.mem ((c.tc : Thread nD τ).loc main_v103) = extractStridedSlice S100000x128 ![0, 0] (reconstruction m c) slices_S120000x128_S100000x128_0_0
      ∧ r.2.mem ((c.tc : Thread nD τ).loc main_v104) = extractStridedSlice S20000x64 ![100000, 0] (reconstruction m c) slices_S120000x128_S20000x64_100000_0
      ∧ r.2.mem ((c.tc : Thread nD τ).loc main_v105) = broadcastInDim S500000 ![] bcast_S_S500000 (constant (F := Ideal) S_ .f32 0x00000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_members m ρ c), (h c).2.1.trans (result_providers m ρ c),
    (h c).2.2.1.trans (result_logits m ρ c), (h c).2.2.2⟩) (run m ρ)

end Cert.KernelIdeal.Results

end
-- ==== Proof.RefWhole.lean ====
/-
  The reference program's two array results as slices of ONE function of the ten arguments: the reconstruction
  `reconstruct`, a [120000, 128] matrix — the stacked features times W1, aggregated over the graph with bias b1 and
  rectified; that times W2, aggregated with bias b2; that times Wdec, plus bdec along every row. On the extended reals
  each of the host's three general products (contracting axis 1 with axis 0) is the plain sum of products
  Σ_k x(p, k) * w(k, e), and a bias laid along axis 1 and repeated down axis 0 adds β(e) at (p, e). No finiteness is used.
-/
import proofs.«163890_j4827543241244_1_alg».proof.Proof.Gen.ReferenceIdeal.Run
import proofs.«163890_j4827543241244_1_alg».proof.Proof.Stages
import proofs.«163890_j4827543241244_1_alg».proof.Proof.LibDenseSteps

set_option maxRecDepth 8192

noncomputable section

namespace Cert.ReferenceIdeal.Whole

open Cert.ReferenceIdeal Cert.ReferenceIdeal.Gen Cert.ReferenceIdeal.Stages Idealize.ShloMosaic Idealize.ShloMosaic.TcCoe Idealize.SL.Sem

/-- The reconstruction in the host program's own operations. -/
def hostReconstruct {F : FTy → Type} [FloatOps F] (a0 : (⟨S100000x128, .f32⟩ : BufTy).Contents (Elt F)) (a1 : (⟨S20000x64, .f32⟩ : BufTy).Contents (Elt F)) (a2 : (⟨S500000, .i32⟩ : BufTy).Contents (Elt F)) (a3 : (⟨S500000, .i32⟩ : BufTy).Contents (Elt F)) (a4 : (⟨S128x128, .f32⟩ : BufTy).Contents (Elt F)) (a5 : (⟨S128, .f32⟩ : BufTy).Contents (Elt F)) (a6 : (⟨S128x32, .f32⟩ : BufTy).Contents (Elt F)) (a7 : (⟨S32, .f32⟩ : BufTy).Contents (Elt F)) (a8 : (⟨S32x128, .f32⟩ : BufTy).Contents (Elt F)) (a9 : (⟨S128, .f32⟩ : BufTy).Contents (Elt F)) : (⟨S120000x128, .f32⟩ : BufTy).Contents (Elt F) :=
  addf (Host.dotGeneral dot_S120000x32_S32x128_S120000x128_1_0_0_1_n_n none (aggregateNarrow (Host.dotGeneral dot_S120000x128_S128x32_S120000x32_1_0_0_1_n_n none (rectify (aggregateWide (Host.dotGeneral dot_S120000x128_S128x128_S120000x128_1_0_0_1_n_n none (features a0 a1) a4) (edgeSources a2 a3) (edgeTargets a2 a3) a5)) a6) (edgeSources a2 a3) (edgeTargets a2 a3) a7) a8) (broadcastInDim S120000x128 ![0, 1] bcast_S1x128_S120000x128_0_1 (broadcastInDim S1x128 ![1] bcast_S128_S1x128_1 a9))

/-- The reconstruction with the three products and the last bias as plain sums, entry by entry. -/
def reconstruct (a0 : (⟨S100000x128, .f32⟩ : BufTy).Contents (Elt Ideal)) (a1 : (⟨S20000x64, .f32⟩ : BufTy).Contents (Elt Ideal)) (a2 : (⟨S500000, .i32⟩ : BufTy).Contents (Elt Ideal)) (a3 : (⟨S500000, .i32⟩ : BufTy).Contents (Elt Ideal)) (a4 : (⟨S128x128, .f32⟩ : BufTy).Contents (Elt Ideal)) (a5 : (⟨S128, .f32⟩ : BufTy).Contents (Elt Ideal)) (a6 : (⟨S128x32, .f32⟩ : BufTy).Contents (Elt Ideal)) (a7 : (⟨S32, .f32⟩ : BufTy).Contents (Elt Ideal)) (a8 : (⟨S32x128, .f32⟩ : BufTy).Contents (Elt Ideal)) (a9 : (⟨S128, .f32⟩ : BufTy).Contents (Elt Ideal)) : (⟨S120000x128, .f32⟩ : BufTy).Contents (Elt Ideal) :=
  Layers.addRow (Layers.prod (aggregateNarrow (Layers.prod (rectify (aggregateWide (Layers.prod (features a0 a1) a4) (edgeSources a2 a3) (edgeTargets a2 a3) a5)) a6) (edgeSources a2 a3) (edgeTargets a2 a3) a7) a8) a9

/-- The host's operations compute the reconstruction. -/
theorem hostReconstruct_eq (a0 : (⟨S100000x128, .f32⟩ : BufTy).Contents (Elt Ideal)) (a1 : (⟨S20000x64, .f32⟩ : BufTy).Contents (Elt Ideal)) (a2 : (⟨S500000, .i32⟩ : BufTy).Contents (Elt Ideal)) (a3 : (⟨S500000, .i32⟩ : BufTy).Contents (Elt Ideal)) (a4 : (⟨S128x128, .f32⟩ : BufTy).Contents (Elt Ideal)) (a5 : (⟨S128, .f32⟩ : BufTy).Contents (Elt Ideal)) (a6 : (⟨S128x32, .f32⟩ : BufTy).Contents (Elt Ideal)) (a7 : (⟨S32, .f32⟩ : BufTy).Contents (Elt Ideal)) (a8 : (⟨S32x128, .f32⟩ : BufTy).Contents (Elt Ideal)) (a9 : (⟨S128, .f32⟩ : BufTy).Contents (Elt Ideal)) :
    hostReconstruct (F := Ideal) a0 a1 a2 a3 a4 a5 a6 a7 a8 a9 = reconstruct a0 a1 a2 a3 a4 a5 a6 a7 a8 a9 := by
  unfold hostReconstruct reconstruct
  rw [Layers.dotGeneral_eq_prod dot_S120000x128_S128x128_S120000x128_1_0_0_1_n_n_wf dot_S120000x128_S128x128_S120000x128_1_0_0_1_n_n rfl, Layers.dotGeneral_eq_prod dot_S120000x128_S128x32_S120000x32_1_0_0_1_n_n_wf dot_S120000x128_S128x32_S120000x32_1_0_0_1_n_n rfl,
    Layers.dotGeneral_eq_prod dot_S120000x32_S32x128_S120000x128_1_0_0_1_n_n_wf dot_S120000x32_S32x128_S120000x128_1_0_0_1_n_n rfl, Layers.host_addRow]

variable (m : (ℓ : Loc nD τ sig) → Buf (Elt Ideal) ℓ) (c : Dev nD)

set_option maxHeartbeats 4000000 in
/-- The first result: the members' rows of the reconstruction. -/
theorem result0 : Value.res_main_v105 m c
    = extractStridedSlice S100000x128 ![0, 0] (reconstruct (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) slices_S120000x128_S100000x128_0_0 := by
  rw [← hostReconstruct_eq]
  unfold Value.res_main_v105
  rfl

set_option maxHeartbeats 4000000 in
/-- The second result: the providers' rows of the reconstruction, its first 64 columns. -/
theorem result1 : Value.res_main_v106 m c
    = extractStridedSlice S20000x64 ![100000, 0] (reconstruct (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) slices_S120000x128_S20000x64_100000_0 := by
  rw [← hostReconstruct_eq]
  unfold Value.res_main_v106
  rfl

end Cert.ReferenceIdeal.Whole

end
-- ==== Proof.lean ====
/-
  The kernel program — a two-layer graph-convolution autoencoder whose three dense products run as Pallas calls over
  blocks of 10000 rows, with everything else (stacking the features, the edge lists, the degree normalisation, the
  gather and scatter-add of the messages, biases, rectifier, final slices) as host operations — computes, on the
  extended reals, exactly what the reference computes with general products on the host.

  Both programs end with the members' rows and the providers' rows (first 64 columns) of ONE [120000, 128] matrix, the
  reconstruction: ((aggregate (rectify (aggregate (X · W1) + b1)) · W2) + b2) · Wdec + bdec, with X the stacked
  features and aggregate the normalised sum of messages over the edges and self-loops; and with a zero vector of edge
  logits. The host stages are the same functions of their inputs in both programs; a Pallas call's output array is the
  product of its whole operands because entry (p, e) of a product reads only row p of the left factor, which lies in
  the block that holds p; and on the extended reals the matrix unit's product (the roundings on its way in being the
  identity), the host's general product, and the plain sum Σ_k x(p, k) * w(k, e) are one function. No law of
  arithmetic beyond that is used, so the precondition that the inputs are finite is never opened.

  The three frames are the generated ones (the reference's is its generated run with the results dropped), and the
  idealization rewrote nothing, so that claim is trivial.
-/
import proofs.«163890_j4827543241244_1_alg».proof.Defs
import proofs.«163890_j4827543241244_1_alg».proof.Proof.Gen.Kernel
import proofs.«163890_j4827543241244_1_alg».proof.Proof.Gen.Kernel.Frame
import proofs.«163890_j4827543241244_1_alg».proof.Proof.Gen.KernelIdeal
import proofs.«163890_j4827543241244_1_alg».proof.Proof.Gen.KernelIdeal.Frame
import proofs.«163890_j4827543241244_1_alg».proof.Proof.Gen.ReferenceIdeal
import proofs.«163890_j4827543241244_1_alg».proof.Proof.Gen.Pre_finite_inputs
import proofs.«163890_j4827543241244_1_alg».proof.Proof.Gen.ReferenceIdeal.Run
import proofs.«163890_j4827543241244_1_alg».proof.Proof.KernelWalk
import proofs.«163890_j4827543241244_1_alg».proof.Proof.RefWhole

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

set_option maxHeartbeats 2000000 in
/-- Both runs end with the same slices of the same reconstruction of arguments that agree. -/
theorem algebraic : Cert.algebraic_KernelIdeal_ReferenceIdeal := by
  intro m ρ m' ρ' _ hagree
  refine ⟨_, _, _, Cert.KernelIdeal.Results.run_values m ρ, ?_⟩
  refine (θ_run Cert.ReferenceIdeal.defs _ _).mono (fun r h c => ?_) (Cert.ReferenceIdeal.Value.run (F := Ideal) m' ρ')
  obtain ⟨h0, h1, h2, h3, h4, h5, h6, h7, h8, h9⟩ := hagree c
  refine ⟨(h c).1.trans ?_, (h c).2.1.trans ?_, (h c).2.2.1.trans ?_, (h c).2.2.2⟩
  · rw [Cert.ReferenceIdeal.Whole.result0, h0, h1, h2, h3, h4, h5, h6, h7, h8, h9]
    rfl
  · rw [Cert.ReferenceIdeal.Whole.result1, h0, h1, h2, h3, h4, h5, h6, h7, h8, h9]
    rfl
  · rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
